-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x64 : Shape := ⟨4, ![4, 8, 128, 64]⟩
abbrev S64x320 : Shape := ⟨2, ![64, 320]⟩
abbrev S64 : Shape := ⟨1, ![64]⟩
abbrev S64x64 : Shape := ⟨2, ![64, 64]⟩
abbrev S_ : Shape := ⟨0, ![]⟩

class Facts : Prop where
  bcast_S_S4x8x128x64 : S_.BroadcastsInDim S4x8x128x64 (![] : Fin 0 → Fin S4x8x128x64.rank)
  reducesTo_S4x8x128x64_S_d0_1_2_3 : S4x8x128x64.ReducesTo [0, 1, 2, 3] S_
  h_S_ : 0 < S_.numel
  bcast_S_S64x320 : S_.BroadcastsInDim S64x320 (![] : Fin 0 → Fin S64x320.rank)
  reducesTo_S64x320_S_d0_1 : S64x320.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S4x8x128x64 .f32) (main_arg1 : FVec F S64x320 .f32) (main_arg2 : FVec F S64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S4x8x128x64 .f32 := Host.absf main_arg0
  let main_cst : FVec F S_ .f32 := constant S_ .f32 0x7F800000#32
  let main_v1 : FVec F S4x8x128x64 .f32 := broadcastInDim S4x8x128x64 ![] bcast_S_S4x8x128x64 main_cst
  let main_v2 : IVec S4x8x128x64 1 := cmpf .olt main_v0 main_v1
  let main_c : IVec S_ 1 := constantI S_ 1 1#1
  let main_v3 : IVec S_ 1 := (fun x v => Host.reduce IntOp.andi x v reducesTo_S4x8x128x64_S_d0_1_2_3 h_S_) main_v2 main_c
  let main_v4 : FVec F S64x320 .f32 := Host.absf main_arg1
  let main_cst_0 : FVec F S_ .f32 := constant S_ .f32 0x7F800000#32
  let main_v5 : FVec F S64x320 .f32 := broadcastInDim S64x320 ![] bcast_S_S64x320 main_cst_0
  let main_v6 : IVec S64x320 1 := cmpf .olt main_v4 main_v5
  let main_c_1 : IVec S_ 1 := constantI S_ 1 1#1
  let main_v7 : IVec S_ 1 := (fun x v => Host.reduce IntOp.andi x v reducesTo_S64x320_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S4x8x128x64 : Shape := ⟨4, ![4, 8, 128, 64]⟩
abbrev S64x320 : Shape := ⟨2, ![64, 320]⟩
abbrev S64 : Shape := ⟨1, ![64]⟩
abbrev S64x64 : Shape := ⟨2, ![64, 64]⟩
abbrev S64x192 : Shape := ⟨2, ![64, 192]⟩
abbrev S64x128 : Shape := ⟨2, ![64, 128]⟩
abbrev S4x8x128x8192 : Shape := ⟨4, ![4, 8, 128, 8192]⟩
abbrev S1x1x128x64 : Shape := ⟨4, ![1, 1, 128, 64]⟩
abbrev S1x1x128x8192 : Shape := ⟨4, ![1, 1, 128, 8192]⟩
abbrev S128x64 : Shape := ⟨2, ![128, 64]⟩
abbrev S1x64 : Shape := ⟨2, ![1, 64]⟩
abbrev S128x192 : Shape := ⟨2, ![128, 192]⟩
abbrev S1x128 : Shape := ⟨2, ![1, 128]⟩
abbrev S128x128 : Shape := ⟨2, ![128, 128]⟩
abbrev S128x128x1 : Shape := ⟨3, ![128, 128, 1]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩
abbrev S16384x64 : Shape := ⟨2, ![16384, 64]⟩
abbrev S128x8192 : Shape := ⟨2, ![128, 8192]⟩
abbrev S4x8x128x128x64 : Shape := ⟨5, ![4, 8, 128, 128, 64]⟩

abbrev nBuf : Space → Nat
  | .hbm => 24
  | .vmem => 12
  | .smem => 0
  | _ => 0

abbrev bufTy : (tb : Table) → Fin (tcTables nBuf tb) → BufTy
  | .hbm, ⟨0, _⟩ => ⟨S4x8x128x64, .f32⟩
  | .hbm, ⟨1, _⟩ => ⟨S64x320, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x192, .f32⟩
  | .hbm, ⟨17, _⟩ => ⟨S64x64, .f32⟩
  | .hbm, ⟨18, _⟩ => ⟨S64x64, .f32⟩
  | .hbm, ⟨19, _⟩ => ⟨S64x128, .f32⟩
  | .hbm, ⟨20, _⟩ => ⟨S64x64, .f32⟩
  | .hbm, ⟨21, _⟩ => ⟨S64x64, .bf16⟩
  | .hbm, ⟨22, _⟩ => ⟨S4x8x128x8192, .f32⟩
  | .hbm, ⟨23, _⟩ => ⟨S4x8x128x128x64, .f32⟩
  | .local _ .vmem, ⟨0, _⟩ => ⟨S1x1x128x64, .f32⟩
  | .local _ .vmem, ⟨1, _⟩ => ⟨S1x1x128x64, .f32⟩
  | .local _ .vmem, ⟨2, _⟩ => ⟨S64x192, .f32⟩
  | .local _ .vmem, ⟨3, _⟩ => ⟨S64x128, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64x64, .bf16⟩
  | .local _ .vmem, ⟨9, _⟩ => ⟨S64, .f32⟩
  | .local _ .vmem, ⟨10, _⟩ => ⟨S1x1x128x8192, .f32⟩
  | .local _ .vmem, ⟨11, _⟩ => ⟨S1x1x128x8192, .f32⟩
  | _, _ => ⟨S4x8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x128x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S64x320_S64x64_0_0 : S64x320.Slices ![0, 0] S64x64
  slices_S64x320_S64x64_0_64 : S64x320.Slices ![0, 64] S64x64
  slices_S64x320_S64x64_0_128 : S64x320.Slices ![0, 128] S64x64
  slices_S64x320_S64x64_0_192 : S64x320.Slices ![0, 192] S64x64
  slices_S64x320_S64x64_0_256 : S64x320.Slices ![0, 256] S64x64
  transposes_S64x64_S64x64_1_0 : S64x64.Transposes [1, 0] S64x64
  concatenates_S64x64_S64x64_S64x64_S64x192_d1 : Shape.Concatenates [S64x64, S64x64, S64x64] S64x192 1
  concatenates_S64x64_S64x64_S64x128_d1 : Shape.Concatenates [S64x64, S64x64] S64x128 1
  bitsLt_bf16_f32 : FTy.bits .bf16 < FTy.bits .f32
  inb_S1x1x128x64_S1x1x128x64_0_0_0_0 : ∀ a, (![0, 0, 0, 0] : Fin 4 → Nat) a + S1x1x128x64.size a ≤ S1x1x128x64.size a
  h_S1x1x128x64 : 0 < S1x1x128x64.numel
  shapeCasts_S1x1x128x64_S128x64 : S1x1x128x64.ShapeCasts S128x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64_S64_0 : ∀ a, (![0] : Fin 1 → Nat) a + S64.size a ≤ S64.size a
  h_S64 : 0 < S64.numel
  reduces_S128x64_S64 : S128x64.Reduces [0] S64
  shapeCasts_S64_S1x64 : S64.ShapeCasts S1x64
  slices_S128x192_o0_0_S128x64 : S128x192.Slices ![0, 0] S128x64
  slices_S128x192_o0_64_S128x64 : S128x192.Slices ![0, 64] S128x64
  slices_S128x192_o0_128_S128x64 : S128x192.Slices ![0, 128] S128x64
  slices_S1x128_o0_0_S1x64 : S1x128.Slices ![0, 0] S1x64
  slices_S1x128_o0_64_S1x64 : S1x128.Slices ![0, 64] S1x64
  broadcasts_S1x64_S128x64 : S1x64.Broadcasts S128x64
  iota_S128x128_d0_w32 : S128x128.Iotas .tc 32 [0]
  iota_S128x128_d1_w32 : S128x128.Iotas .tc 32 [1]
  natLt_1_32 : 1 < 32
  shapeCasts_S128x128_S128x128x1 : S128x128.ShapeCasts S128x128x1
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S1x64_S1x1x64 : S1x64.ShapeCasts S1x1x64
  broadcasts_S1x1x64_S128x128x64 : S1x1x64.Broadcasts S128x128x64
  broadcasts_S128x128x1_S128x128x64 : S128x128x1.Broadcasts S128x128x64
  reduces_S128x128x64_S128x128 : S128x128x64.Reduces [2] S128x128
  shapeCasts_S64_S1x1x64 : S64.ShapeCasts S1x1x64
  shapeCasts_S128x128x64_S16384x64 : S128x128x64.ShapeCasts S16384x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S16384x64 : S1x64.Broadcasts S16384x64
  shapeCasts_S16384x64_S128x8192 : S16384x64.ShapeCasts S128x8192
  inb_S1x1x128x8192_S1x1x128x8192_0_0_0_0 : ∀ a, (![0, 0, 0, 0] : Fin 4 → Nat) a + S1x1x128x8192.size a ≤ S1x1x128x8192.size a
  h_S1x1x128x8192 : 0 < S1x1x128x8192.numel
  shapeCasts_S1x1x128x8192_S128x8192 : S1x1x128x8192.ShapeCasts S128x8192
  shapeCasts_S128x8192_S1x1x128x8192 : S128x8192.ShapeCasts S1x1x128x8192
  shapeCasts_S4x8x128x8192_S4x8x128x128x64 : S4x8x128x8192.ShapeCasts S4x8x128x128x64
  dot_S128x64_S64x192_S128x192_1_0_0_1_n_n_wf : DotDims.WF S128x64 S64x192 S128x192 [1] [0] [0] [1] [] []
  dot_S1x64_S64x128_S1x128_1_0_0_1_n_n_wf : DotDims.WF S1x64 S64x128 S1x128 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x64.size a ≤ S4x8x128x64.size a
  hwx0_0 : ∀ i : grid0.Coords, EltTy.bits .f32 = 32 ∨ (Rect.block (s := S4x8x128x64) S1x1x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128x8192.size a ≤ S4x8x128x8192.size a
  hwx0_9 : ∀ i : grid0.Coords, EltTy.bits .f32 = 32 ∨ (Rect.block (s := S4x8x128x8192) S1x1x128x8192.size (cc0_transform_9 i) (hinb0_9 i)).WholeWords (EltTy.packing .f32)

variable [Facts₀]

def dot_S128x64_S64x192_S128x192_1_0_0_1_n_n : DotDims S128x64 S64x192 S128x192 where
  lhsContracting := [1]
  rhsContracting := [0]
  lhsNonContracting := [0]
  rhsNonContracting := [1]
  lhsBatch := []
  rhsBatch := []
  wf := dot_S128x64_S64x192_S128x192_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S1x1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x1x128x8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x8x128x64 : Shape := ⟨4, ![4, 8, 128, 64]⟩
abbrev S64x320 : Shape := ⟨2, ![64, 320]⟩
abbrev S64 : Shape := ⟨1, ![64]⟩
abbrev S64x64 : Shape := ⟨2, ![64, 64]⟩
abbrev S128x128 : Shape := ⟨2, ![128, 128]⟩
abbrev S_ : Shape := ⟨0, ![]⟩
abbrev S128x128x1 : Shape := ⟨3, ![128, 128, 1]⟩
abbrev S4x8x64 : Shape := ⟨3, ![4, 8, 64]⟩
abbrev S4x8x1x64 : Shape := ⟨4, ![4, 8, 1, 64]⟩
abbrev S4x8x128x1x64 : Shape := ⟨5, ![4, 8, 128, 1, 64]⟩
abbrev S1x1x128x128x1 : Shape := ⟨5, ![1, 1, 128, 128, 1]⟩
abbrev S4x8x128x128x64 : Shape := ⟨5, ![4, 8, 128, 128, 64]⟩
abbrev S4x8x1x128x64 : Shape := ⟨5, ![4, 8, 1, 128, 64]⟩
abbrev S4x8x1x1x64 : Shape := ⟨5, ![4, 8, 1, 1, 64]⟩
abbrev S4x8x128x128x320 : Shape := ⟨5, ![4, 8, 128, 128, 320]⟩
abbrev S1x1x1x1x64 : Shape := ⟨5, ![1, 1, 1, 1, 64]⟩
abbrev S4x8x128x128 : Shape := ⟨4, ![4, 8, 128, 128]⟩
abbrev S4x8x128x128x1 : Shape := ⟨5, ![4, 8, 128, 128, 1]⟩
abbrev S1x1x64 : Shape := ⟨3, ![1, 1, 64]⟩
abbrev S128x128x64 : Shape := ⟨3, ![128, 128, 64]⟩
abbrev S1x1x128x128x64 : Shape := ⟨5, ![1, 1, 128, 128, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x8x128x64, .f32⟩
  | .hbm, ⟨1, _⟩ => ⟨S64x320, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x128, .f32⟩
  | .hbm, ⟨15, _⟩ => ⟨S128x128x1, .f32⟩
  | .hbm, ⟨16, _⟩ => ⟨S_, .f32⟩
  | .hbm, ⟨17, _⟩ => ⟨S4x8x64, .f32⟩
  | .hbm, ⟨18, _⟩ => ⟨S4x8x1x64, .f32⟩
  | .hbm, ⟨19, _⟩ => ⟨S_, .f32⟩
  | .hbm, ⟨20, _⟩ => ⟨S4x8x1x64, .f32⟩
  | .hbm, ⟨21, _⟩ => ⟨S4x8x1x64, .f32⟩
  | .hbm, ⟨22, _⟩ => ⟨S4x8x128x1x64, .f32⟩
  | .hbm, ⟨23, _⟩ => ⟨S1x1x128x128x1, .f32⟩
  | .hbm, ⟨24, _⟩ => ⟨S4x8x128x128x64, .f32⟩
  | .hbm, ⟨25, _⟩ => ⟨S4x8x128x128x64, .f32⟩
  | .hbm, ⟨26, _⟩ => ⟨S4x8x128x128x64, .f32⟩
  | .hbm, ⟨27, _⟩ => ⟨S4x8x128x1x64, .f32⟩
  | .hbm, ⟨28, _⟩ => ⟨S4x8x128x128x64, .f32⟩
  | .hbm, ⟨29, _⟩ => ⟨S4x8x1x128x64, .f32⟩
  | .hbm, ⟨30, _⟩ => ⟨S4x8x128x128x64, .f32⟩
  | .hbm, ⟨31, _⟩ => ⟨S4x8x1x1x64, .f32⟩
  | .hbm, ⟨32, _⟩ => ⟨S1x1x128x128x1, .f32⟩
  | .hbm, ⟨33, _⟩ => ⟨S4x8x128x128x64, .f32⟩
  | .hbm, ⟨34, _⟩ => ⟨S4x8x128x128x64, .f32⟩
  | .hbm, ⟨35, _⟩ => ⟨S4x8x128x128x64, .f32⟩
  | .hbm, ⟨36, _⟩ => ⟨S4x8x1x1x64, .f32⟩
  | .hbm, ⟨37, _⟩ => ⟨S4x8x128x128x64, .f32⟩
  | .hbm, ⟨38, _⟩ => ⟨S4x8x128x128x320, .f32⟩
  | .hbm, ⟨39, _⟩ => ⟨S4x8x128x128x64, .f32⟩
  | .hbm, ⟨40, _⟩ => ⟨S1x1x1x1x64, .f32⟩
  | .hbm, ⟨41, _⟩ => ⟨S4x8x128x128x64, .f32⟩
  | .hbm, ⟨42, _⟩ => ⟨S4x8x128x128x64, .f32⟩
  | .hbm, ⟨43, _⟩ => ⟨S_, .f32⟩
  | .hbm, ⟨44, _⟩ => ⟨S4x8x128x128, .f32⟩
  | .hbm, ⟨45, _⟩ => ⟨S4x8x128x128x1, .f32⟩
  | .hbm, ⟨46, _⟩ => ⟨S_, .f32⟩
  | .hbm, ⟨47, _⟩ => ⟨S4x8x128x128x1, .f32⟩
  | .hbm, ⟨48, _⟩ => ⟨S4x8x128x128x1, .f32⟩
  | .hbm, ⟨49, _⟩ => ⟨S4x8x128x128x64, .f32⟩
  | .hbm, ⟨50, _⟩ => ⟨S4x8x128x128x64, .f32⟩
  | .hbm, ⟨51, _⟩ => ⟨S4x8x128x128x64, .f32⟩
  | .hbm, ⟨52, _⟩ => ⟨S_, .f32⟩
  | .hbm, ⟨53, _⟩ => ⟨S4x8x128x128, .f32⟩
  | .hbm, ⟨54, _⟩ => ⟨S4x8x128x128x1, .f32⟩
  | .hbm, ⟨55, _⟩ => ⟨S_, .f32⟩
  | .hbm, ⟨56, _⟩ => ⟨S4x8x128x128x1, .f32⟩
  | .hbm, ⟨57, _⟩ => ⟨S4x8x128x128x1, .f32⟩
  | .hbm, ⟨58, _⟩ => ⟨S4x8x128x128x64, .f32⟩
  | .hbm, ⟨59, _⟩ => ⟨S4x8x128x128x64, .f32⟩
  | .hbm, ⟨60, _⟩ => ⟨S_, .f32⟩
  | .hbm, ⟨61, _⟩ => ⟨S4x8x128x128x1, .f32⟩
  | .hbm, ⟨62, _⟩ => ⟨S4x8x128x128x1, .f32⟩
  | .hbm, ⟨63, _⟩ => ⟨S4x8x128x128x1, .f32⟩
  | .hbm, ⟨64, _⟩ => ⟨S4x8x128x128x64, .f32⟩
  | .hbm, ⟨65, _⟩ => ⟨S4x8x128x128x64, .f32⟩
  | .hbm, ⟨66, _⟩ => ⟨S1x1x1x1x64, .f32⟩
  | .hbm, ⟨67, _⟩ => ⟨S4x8x128x128x64, .f32⟩
  | .hbm, ⟨68, _⟩ => ⟨S4x8x128x128x64, .f32⟩
  | .hbm, ⟨69, _⟩ => ⟨S1x1x1x1x64, .f32⟩
  | .hbm, ⟨70, _⟩ => ⟨S4x8x128x128x64, .f32⟩
  | .hbm, ⟨71, _⟩ => ⟨S4x8x128x128x64, .f32⟩
  | .hbm, ⟨72, _⟩ => ⟨S_, .f32⟩
  | .hbm, ⟨73, _⟩ => ⟨S4x8x128x128x64, .f32⟩
  | .hbm, ⟨74, _⟩ => ⟨S4x8x128x128x64, .f32⟩
  | .hbm, ⟨75, _⟩ => ⟨S1x1x64, .f32⟩
  | .hbm, ⟨76, _⟩ => ⟨S128x128x64, .f32⟩
  | .hbm, ⟨77, _⟩ => ⟨S128x128x64, .f32⟩
  | .hbm, ⟨78, _⟩ => ⟨S128x128x64, .f32⟩
  | .hbm, ⟨79, _⟩ => ⟨S1x1x128x128x64, .f32⟩
  | .hbm, ⟨80, _⟩ => ⟨S4x8x128x128x64, .f32⟩
  | .hbm, ⟨81, _⟩ => ⟨S4x8x128x128x64, .f32⟩
  | .hbm, ⟨82, _⟩ => ⟨S4x8x128x128x64, .f32⟩
  | .hbm, ⟨83, _⟩ => ⟨S1x1x1x1x64, .f32⟩
  | .hbm, ⟨84, _⟩ => ⟨S4x8x128x128x64, .f32⟩
  | .hbm, ⟨85, _⟩ => ⟨S4x8x128x128x64, .f32⟩
  | _, _ => ⟨S4x8x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_cst : Ref sig .tc := ⟨.hbm, 72, rfl⟩
abbrev main_call0_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  reducesTo_S4x8x128x64_S4x8x64_d2 : S4x8x128x64.ReducesTo [2] S4x8x64
  h_S_ : 0 < S_.numel
  bcast_S4x8x64_S4x8x1x64_0_1_3 : S4x8x64.BroadcastsInDim S4x8x1x64 (![0, 1, 3] : Fin 3 → Fin S4x8x1x64.rank)
  bcast_S_S4x8x1x64 : S_.BroadcastsInDim S4x8x1x64 (![] : Fin 0 → Fin S4x8x1x64.rank)
  bcast_S4x8x128x64_S4x8x128x1x64_0_1_2_4 : S4x8x128x64.BroadcastsInDim S4x8x128x1x64 (![0, 1, 2, 4] : Fin 4 → Fin S4x8x128x1x64.rank)
  bcast_S128x128x1_S1x1x128x128x1_2_3_4 : S128x128x1.BroadcastsInDim S1x1x128x128x1 (![2, 3, 4] : Fin 3 → Fin S1x1x128x128x1.rank)
  bcast_S4x8x128x1x64_S4x8x128x128x64_0_1_2_3_4 : S4x8x128x1x64.BroadcastsInDim S4x8x128x128x64 (![0, 1, 2, 3, 4] : Fin 5 → Fin S4x8x128x128x64.rank)
  bcast_S1x1x128x128x1_S4x8x128x128x64_0_1_2_3_4 : S1x1x128x128x1.BroadcastsInDim S4x8x128x128x64 (![0, 1, 2, 3, 4] : Fin 5 → Fin S4x8x128x128x64.rank)
  bcast_S4x8x128x64_S4x8x1x128x64_0_1_3_4 : S4x8x128x64.BroadcastsInDim S4x8x1x128x64 (![0, 1, 3, 4] : Fin 4 → Fin S4x8x1x128x64.rank)
  bcast_S4x8x1x128x64_S4x8x128x128x64_0_1_2_3_4 : S4x8x1x128x64.BroadcastsInDim S4x8x128x128x64 (![0, 1, 2, 3, 4] : Fin 5 → Fin S4x8x128x128x64.rank)
  bcast_S4x8x1x64_S4x8x1x1x64_0_1_2_4 : S4x8x1x64.BroadcastsInDim S4x8x1x1x64 (![0, 1, 2, 4] : Fin 4 → Fin S4x8x1x1x64.rank)
  bcast_S4x8x1x1x64_S4x8x128x128x64_0_1_2_3_4 : S4x8x1x1x64.BroadcastsInDim S4x8x128x128x64 (![0, 1, 2, 3, 4] : Fin 5 → Fin S4x8x128x128x64.rank)
  concatenates_S4x8x128x128x64_S4x8x128x128x64_S4x8x128x128x64_S4x8x128x128x64_S4x8x128x128x64_S4x8x128x128x320_d4 : Shape.Concatenates [S4x8x128x128x64, S4x8x128x128x64, S4x8x128x128x64, S4x8x128x128x64, S4x8x128x128x64] S4x8x128x128x320 4
  bcast_S64_S1x1x1x1x64_4 : S64.BroadcastsInDim S1x1x1x1x64 (![4] : Fin 1 → Fin S1x1x1x1x64.rank)
  bcast_S1x1x1x1x64_S4x8x128x128x64_0_1_2_3_4 : S1x1x1x1x64.BroadcastsInDim S4x8x128x128x64 (![0, 1, 2, 3, 4] : Fin 5 → Fin S4x8x128x128x64.rank)
  reducesTo_S4x8x128x128x64_S4x8x128x128_d4 : S4x8x128x128x64.ReducesTo [4] S4x8x128x128
  bcast_S4x8x128x128_S4x8x128x128x1_0_1_2_3 : S4x8x128x128.BroadcastsInDim S4x8x128x128x1 (![0, 1, 2, 3] : Fin 4 → Fin S4x8x128x128x1.rank)
  bcast_S_S4x8x128x128x1 : S_.BroadcastsInDim S4x8x128x128x1 (![] : Fin 0 → Fin S4x8x128x128x1.rank)
  bcast_S4x8x128x128x1_S4x8x128x128x64_0_1_2_3_4 : S4x8x128x128x1.BroadcastsInDim S4x8x128x128x64 (![0, 1, 2, 3, 4] : Fin 5 → Fin S4x8x128x128x64.rank)
  bcast_S_S4x8x128x128x64 : S_.BroadcastsInDim S4x8x128x128x64 (![] : Fin 0 → Fin S4x8x128x128x64.rank)
  bcast_S64_S1x1x64_2 : S64.BroadcastsInDim S1x1x64 (![2] : Fin 1 → Fin S1x1x64.rank)
  bcast_S1x1x64_S128x128x64_0_1_2 : S1x1x64.BroadcastsInDim S128x128x64 (![0, 1, 2] : Fin 3 → Fin S128x128x64.rank)
  bcast_S128x128x1_S128x128x64_0_1_2 : S128x128x1.BroadcastsInDim S128x128x64 (![0, 1, 2] : Fin 3 → Fin S128x128x64.rank)
  bcast_S128x128x64_S1x1x128x128x64_2_3_4 : S128x128x64.BroadcastsInDim S1x1x128x128x64 (![2, 3, 4] : Fin 3 → Fin S1x1x128x128x64.rank)
  bcast_S1x1x128x128x64_S4x8x128x128x64_0_1_2_3_4 : S1x1x128x128x64.BroadcastsInDim S4x8x128x128x64 (![0, 1, 2, 3, 4] : Fin 5 → Fin S4x8x128x128x64.rank)
  dot_S4x8x128x128x320_S64x320_S4x8x128x128x64_4_1_0123_0_n_n_wf : DotDims.WF S4x8x128x128x320 S64x320 S4x8x128x128x64 [4] [1] [0, 1, 2, 3] [0] [] []
  dot_S4x8x128x128x64_S64x64_S4x8x128x128x64_4_1_0123_0_n_n_wf : DotDims.WF S4x8x128x128x64 S64x64 S4x8x128x128x64 [4] [1] [0, 1, 2, 3] [0] [] []

variable [Facts₀]

def dot_S4x8x128x128x320_S64x320_S4x8x128x128x64_4_1_0123_0_n_n : DotDims S4x8x128x128x320 S64x320 S4x8x128x128x64 where
  lhsContracting := [4]
  rhsContracting := [1]
  lhsNonContracting := [0, 1, 2, 3]
  rhsNonContracting := [0]
  lhsBatch := []
  rhsBatch := []
  wf := dot_S4x8x128x128x320_S64x320_S4x8x128x128x64_4_1_0123_0_n_n_wf
def dot_S4x8x128x128x64_S64x64_S4x8x128x128x64_4_1_0123_0_n_n : DotDims S4x8x128x128x64 S64x64 S4x8x128x128x64 where
  lhsContracting := [4]
  rhsContracting := [1]
  lhsNonContracting := [0, 1, 2, 3]
  rhsNonContracting := [0]
  lhsBatch := []
  rhsBatch := []
  wf := dot_S4x8x128x128x64_S64x64_S4x8x128x128x64_4_1_0123_0_n_n_wf

class Facts : Prop extends Facts₀ where

variable [Facts]
-- ==== Proof.BitsFrame.lean ====
/-
  The kernel's entry function, as printed at the word level, runs to its end, faults nowhere and leaves its
  eight arguments unchanged.

  The same argument as for its idealization: no operation was rewritten between the two programs, so this one
  has the same fourteen host lines, the same region on a 4 × 8 grid whose body loads nine input blocks whole,
  computes and stores the output block whole, and the same reshape of the region's result. Nothing in the
  argument depends on how a float is represented.
-/
import proofs.«125062_j63041529970916_2_alg».proof.Proof.Gen.Kernel.Launch
import proofs.«125062_j63041529970916_2_alg».proof.Proof.Gen.Kernel.Skeleton
import proofs.«125062_j63041529970916_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the one region -/

/-- What core `c`'s buffers hold when the region is entered: the launch memory after the fourteen host lines
    that slice, transpose and join the first layer's weights and transpose the second layer's. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the host lines before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped buffers of the core, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the
    frame claim's post: a staged argument keeps its entry contents, the two weight matrices no window stages
    are untouched by the reshape after the region, and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).1 6).trans (((dats 0 c).arrAt_in 6 rfl _).trans ((hA c 6).trans (V_main_arg5 m c))),
      ((h c).2 main_arg6 (Pipeline.mem_restRefs_of main_arg6 (by decide) (by decide))).trans (W_main_arg6 m dats c),
      ((h c).1 8).trans (((dats 0 c).arrAt_in 8 rfl _).trans ((hA c 8).trans (V_main_arg7 m c)))⟩) h

/-! ## The body's accesses: every load and the one store take a whole buffer -/

abbrev r0_0 : Rect S1x1x128x64 := Rect.unit (s := S1x1x128x64) ![0, 0, 0, 0] S1x1x128x64.size inb_S1x1x128x64_S1x1x128x64_0_0_0_0
abbrev r0_1 : Rect S64x192 := Rect.unit (s := S64x192) ![0, 0] S64x192.size inb_S64x192_S64x192_0_0
abbrev r0_2 : Rect S64x128 := Rect.unit (s := S64x128) ![0, 0] S64x128.size inb_S64x128_S64x128_0_0
abbrev r0_3 : Rect S64 := Rect.unit (s := S64) ![0] S64.size inb_S64_S64_0
abbrev r0_4 : Rect S64 := Rect.unit (s := S64) ![0] S64.size inb_S64_S64_0
abbrev r0_5 : Rect S64 := Rect.unit (s := S64) ![0] S64.size inb_S64_S64_0
abbrev r0_6 : Rect S64 := Rect.unit (s := S64) ![0] S64.size inb_S64_S64_0
abbrev r0_7 : Rect S64x64 := Rect.unit (s := S64x64) ![0, 0] S64x64.size inb_S64x64_S64x64_0_0
abbrev r0_8 : Rect S64 := Rect.unit (s := S64) ![0] S64.size inb_S64_S64_0
abbrev r0_9 : Rect S1x1x128x8192 := Rect.unit (s := S1x1x128x8192) ![0, 0, 0, 0] S1x1x128x8192.size inb_S1x1x128x8192_S1x1x128x8192_0_0_0_0

/-! ## What the body leaves in the output window's buffer -/

/-- The output buffer after the body: its one store of the whole block, the stored value the body's
    arithmetic of the nine input blocks. -/
def out0_9 (x0 : Vec F S1x1x128x64 .f32) (x1 : Vec F S64x192 .f32) (x2 : Vec F S64x128 .f32) (x3 : Vec F S64 .f32) (x4 : Vec F S64 .f32) (x5 : Vec F S64 .f32) (x6 : Vec F S64 .f32) (x7 : Vec F S64x64 .bf16) (x8 : Vec F S64 .f32) : Vec F S1x1x128x8192 .f32 :=
  View.canon [⟨r0_9, k0_pay4 (k0_pay1 (F := F)) (k0_pay2 (View.ld x0 r0_0) (View.ld x1 r0_1) (View.ld x2 r0_2) (View.ld x3 r0_3)) (k0_pay3 (View.ld x0 r0_0) (View.ld x1 r0_1) (View.ld x2 r0_2) (View.ld x3 r0_3)) (Scalar.ofBits .f32 0x42800000#32) (View.ld x4 r0_4) (View.ld x5 r0_5) (View.ld x6 r0_6) (View.ld x7 r0_7) (View.ld x8 r0_8)⟩]

/-- The one store covers the buffer. -/
theorem cover0_9 (p0 : Vec F S1x1x128x8192 .f32) (y : S1x1x128x8192.Idx) :
    ∃ pc ∈ ([⟨r0_9, p0⟩] : List (View.Piece (Elt F) S1x1x128x8192 .f32)), y ∈ pc.1.set :=
  View.cover_of_tiled [⟨r0_9, p0⟩] S1x1x128x8192.size (by rfl) y

/-! ## The body's triple -/

set_option maxHeartbeats 4000000 in
/-- On whole staging buffers, the nine inputs' at contents `xW` and the output's at anything, the body runs to its
    end leaving the inputs as they were and the output at `out0_9` of them. -/
theorem sound_kernel (c : Dev nD) (E : Set ℕ) (i : grid0.Coords) (arg2 : Memref sig .tc .vmem S1x1x128x64 .f32) (harg2 : arg2.IsWhole) (arg3 : Memref sig .tc .vmem S64x192 .f32) (harg3 : arg3.IsWhole) (arg4 : Memref sig .tc .vmem S64x128 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .bf16) (harg9 : arg9.IsWhole) (arg10 : Memref sig .tc .vmem S64 .f32) (harg10 : arg10.IsWhole) (arg11 : Memref sig .tc .vmem S1x1x128x8192 .f32) (harg11 : arg11.IsWhole)
    (x0 : Vec F S1x1x128x64 .f32) (x1 : Vec F S64x192 .f32) (x2 : Vec F S64x128 .f32) (x3 : Vec F S64 .f32) (x4 : Vec F S64 .f32) (x5 : Vec F S64 .f32) (x6 : Vec F S64 .f32) (x7 : Vec F S64x64 .bf16) (x8 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out0_9 x0 x1 x2 x3 x4 x5 x6 x7 x8)) -∗ K ⟨⟩))
      ⊢ wp frame (wpE (defs₀ (F := F)) Variants.none c none) E (cc0__gmp_kernel i arg2 harg2 arg3 harg3 arg4 harg4 arg5 harg5 arg6 harg6 arg7 harg7 arg8 harg8 arg9 harg9 arg10 harg10 arg11 harg11) K := by
  simp only [cc0__gmp_kernel_eq_skeleton]; unfold cc0__gmp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data on core `c`: the arrays as the region finds them; after the body at point `t` each input's
    buffer still at its block and the output's at `out0_9` of the input blocks; the invariant the untouched
    scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, every
    array of the pipeline ending at what the proof data compute and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frm

end
-- ==== Proof.IdealFrame.lean ====
/-
  The idealized kernel's entry function runs to its end, faults nowhere and leaves its eight arguments unchanged.

  The entry function is fourteen host lines (five column slices of the first layer's weights, their transposes,
  two joins along the columns, the second layer's weights transposed and narrowed), one region on a 4 × 8 grid,
  and one reshape of the region's result. At each grid point the body loads its nine input blocks whole,
  computes, and stores the output block whole; it keeps nothing between points. So the proof data name, per
  point, each input buffer at its block and the output buffer at the body's arithmetic of those blocks, and the
  library's frame run around one region does the rest.
-/
import proofs.«125062_j63041529970916_2_alg».proof.Proof.Gen.KernelIdeal.Launch
import proofs.«125062_j63041529970916_2_alg».proof.Proof.Gen.KernelIdeal.Skeleton
import proofs.«125062_j63041529970916_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the one region -/

/-- What core `c`'s buffers hold when the region is entered: the launch memory after the fourteen host lines
    that slice, transpose and join the first layer's weights and transpose the second layer's. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the host lines before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped buffers of the core, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the
    frame claim's post: a staged argument keeps its entry contents, the two weight matrices no window stages
    are untouched by the reshape after the region, and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).1 6).trans (((dats 0 c).arrAt_in 6 rfl _).trans ((hA c 6).trans (V_main_arg5 m c))),
      ((h c).2 main_arg6 (Pipeline.mem_restRefs_of main_arg6 (by decide) (by decide))).trans (W_main_arg6 m dats c),
      ((h c).1 8).trans (((dats 0 c).arrAt_in 8 rfl _).trans ((hA c 8).trans (V_main_arg7 m c)))⟩) h

/-! ## The body's accesses: every load and the one store take a whole buffer -/

abbrev r0_0 : Rect S1x1x128x64 := Rect.unit (s := S1x1x128x64) ![0, 0, 0, 0] S1x1x128x64.size inb_S1x1x128x64_S1x1x128x64_0_0_0_0
abbrev r0_1 : Rect S64x192 := Rect.unit (s := S64x192) ![0, 0] S64x192.size inb_S64x192_S64x192_0_0
abbrev r0_2 : Rect S64x128 := Rect.unit (s := S64x128) ![0, 0] S64x128.size inb_S64x128_S64x128_0_0
abbrev r0_3 : Rect S64 := Rect.unit (s := S64) ![0] S64.size inb_S64_S64_0
abbrev r0_4 : Rect S64 := Rect.unit (s := S64) ![0] S64.size inb_S64_S64_0
abbrev r0_5 : Rect S64 := Rect.unit (s := S64) ![0] S64.size inb_S64_S64_0
abbrev r0_6 : Rect S64 := Rect.unit (s := S64) ![0] S64.size inb_S64_S64_0
abbrev r0_7 : Rect S64x64 := Rect.unit (s := S64x64) ![0, 0] S64x64.size inb_S64x64_S64x64_0_0
abbrev r0_8 : Rect S64 := Rect.unit (s := S64) ![0] S64.size inb_S64_S64_0
abbrev r0_9 : Rect S1x1x128x8192 := Rect.unit (s := S1x1x128x8192) ![0, 0, 0, 0] S1x1x128x8192.size inb_S1x1x128x8192_S1x1x128x8192_0_0_0_0

/-! ## What the body leaves in the output window's buffer -/

/-- The output buffer after the body: its one store of the whole block, the stored value the body's
    arithmetic of the nine input blocks. -/
def out0_9 (x0 : Vec F S1x1x128x64 .f32) (x1 : Vec F S64x192 .f32) (x2 : Vec F S64x128 .f32) (x3 : Vec F S64 .f32) (x4 : Vec F S64 .f32) (x5 : Vec F S64 .f32) (x6 : Vec F S64 .f32) (x7 : Vec F S64x64 .bf16) (x8 : Vec F S64 .f32) : Vec F S1x1x128x8192 .f32 :=
  View.canon [⟨r0_9, k0_pay4 (k0_pay1 (F := F)) (k0_pay2 (View.ld x0 r0_0) (View.ld x1 r0_1) (View.ld x2 r0_2) (View.ld x3 r0_3)) (k0_pay3 (View.ld x0 r0_0) (View.ld x1 r0_1) (View.ld x2 r0_2) (View.ld x3 r0_3)) (Scalar.ofBits .f32 0x42800000#32) (View.ld x4 r0_4) (View.ld x5 r0_5) (View.ld x6 r0_6) (View.ld x7 r0_7) (View.ld x8 r0_8)⟩]

/-- The one store covers the buffer. -/
theorem cover0_9 (p0 : Vec F S1x1x128x8192 .f32) (y : S1x1x128x8192.Idx) :
    ∃ pc ∈ ([⟨r0_9, p0⟩] : List (View.Piece (Elt F) S1x1x128x8192 .f32)), y ∈ pc.1.set :=
  View.cover_of_tiled [⟨r0_9, p0⟩] S1x1x128x8192.size (by rfl) y

/-! ## The body's triple -/

set_option maxHeartbeats 4000000 in
/-- On whole staging buffers, the nine inputs' at contents `xW` and the output's at anything, the body runs to its
    end leaving the inputs as they were and the output at `out0_9` of them. -/
theorem sound_kernel (c : Dev nD) (E : Set ℕ) (i : grid0.Coords) (arg2 : Memref sig .tc .vmem S1x1x128x64 .f32) (harg2 : arg2.IsWhole) (arg3 : Memref sig .tc .vmem S64x192 .f32) (harg3 : arg3.IsWhole) (arg4 : Memref sig .tc .vmem S64x128 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .bf16) (harg9 : arg9.IsWhole) (arg10 : Memref sig .tc .vmem S64 .f32) (harg10 : arg10.IsWhole) (arg11 : Memref sig .tc .vmem S1x1x128x8192 .f32) (harg11 : arg11.IsWhole)
    (x0 : Vec F S1x1x128x64 .f32) (x1 : Vec F S64x192 .f32) (x2 : Vec F S64x128 .f32) (x3 : Vec F S64 .f32) (x4 : Vec F S64 .f32) (x5 : Vec F S64 .f32) (x6 : Vec F S64 .f32) (x7 : Vec F S64x64 .bf16) (x8 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out0_9 x0 x1 x2 x3 x4 x5 x6 x7 x8)) -∗ K ⟨⟩))
      ⊢ wp frame (wpE (defs₀ (F := F)) Variants.none c none) E (cc0__gmp_kernel i arg2 harg2 arg3 harg3 arg4 harg4 arg5 harg5 arg6 harg6 arg7 harg7 arg8 harg8 arg9 harg9 arg10 harg10 arg11 harg11) K := by
  simp only [cc0__gmp_kernel_eq_skeleton]; unfold cc0__gmp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data on core `c`: the arrays as the region finds them; after the body at point `t` each input's
    buffer still at its block and the output's at `out0_9` of the input blocks; the invariant the untouched
    scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, every
    array of the pipeline ending at what the proof data compute and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frm

end
-- ==== Proof.Spec.lean ====
/-
  The pairwise-feature network computed once per (batch, user) slab, as plain functions on the extended reals.

  For a slab `xs` of 128 rows and 64 features, every ordered pair of rows (i, j) gets five feature blocks:
  row i on the diagonal only, row i, row j, the column means on the diagonal only, the column means. A first
  linear layer mixes the 320 pair features into 64, a LayerNorm over those 64 follows, then relu, a bias
  added on the diagonal only, and a second linear layer.

  Two spellings of the first layer are stated: one sum over all 320 pair features (`fc1Whole`), and five
  sums of 64 terms with the diagonal indicator pulled out of the two diagonal blocks (`fc1Split`). They are
  the same function because the indicator only takes the values 0 and 1, so no finiteness is needed
  (`fc1Split_eq_fc1Whole`).
-/
import Idealize.ShloMosaic.PureOps.Ideal
import Idealize.ShloMosaic.PureOps.Ideal.Laws

noncomputable section

namespace Cert.PairMlp

open Idealize.ShloMosaic

/-- 1 on the diagonal of the pair grid, 0 off it. -/
def diag (i j : Fin 128) : EReal := if i = j then 1 else 0

/-- Column `f` of the slab averaged over its 128 rows: the sum divided by the float 128. -/
def colMean (xs : Fin 128 → Fin 64 → EReal) (f : Fin 64) : EReal :=
  Ideal.div (∑ r : Fin 128, xs r f) (Ideal.ofBits .f32 0x43000000#32)

/-- Column `d` of chunk `c` when 2, 3 or 5 chunks of 64 columns sit side by side. -/
def col2 (c : Fin 2) (d : Fin 64) : Fin 128 := ⟨c.val * 64 + d.val, by have := c.isLt; have := d.isLt; omega⟩
def col3 (c : Fin 3) (d : Fin 64) : Fin 192 := ⟨c.val * 64 + d.val, by have := c.isLt; have := d.isLt; omega⟩
def col5 (c : Fin 5) (d : Fin 64) : Fin 320 := ⟨c.val * 64 + d.val, by have := c.isLt; have := d.isLt; omega⟩

/-- The first layer as the kernel spells it: rows i and j and the means against their own weight chunks, and
    the diagonal indicator times (row i plus the means) against the two diagonal chunks. `wabc` holds the
    chunks for (row i on the diagonal, row i, row j), `w45` those for (means on the diagonal, means). -/
def fc1Split (xs : Fin 128 → Fin 64 → EReal) (wabc : Fin 64 → Fin 192 → EReal) (w45 : Fin 64 → Fin 128 → EReal)
    (b1 : Fin 64 → EReal) (i j : Fin 128) (d : Fin 64) : EReal :=
  (((∑ f : Fin 64, xs i f * wabc f (col3 1 d)) + (∑ f : Fin 64, xs j f * wabc f (col3 2 d)))
      + ((∑ f : Fin 64, colMean xs f * w45 f (col2 1 d)) + b1 d))
    + diag i j * ((∑ f : Fin 64, xs i f * wabc f (col3 0 d)) + (∑ f : Fin 64, colMean xs f * w45 f (col2 0 d)))

/-- Pair feature `k` of rows (i, j): the five blocks side by side. -/
def pairFeat (xs : Fin 128 → Fin 64 → EReal) (i j : Fin 128) (k : Fin 320) : EReal :=
  if k.val < 64 then xs i ⟨k.val % 64, Nat.mod_lt _ (by decide)⟩ * diag i j
  else if k.val < 128 then xs i ⟨k.val % 64, Nat.mod_lt _ (by decide)⟩
  else if k.val < 192 then xs j ⟨k.val % 64, Nat.mod_lt _ (by decide)⟩
  else if k.val < 256 then colMean xs ⟨k.val % 64, Nat.mod_lt _ (by decide)⟩ * diag i j
  else colMean xs ⟨k.val % 64, Nat.mod_lt _ (by decide)⟩

/-- The first layer as the reference spells it: one sum over the 320 pair features. -/
def fc1Whole (xs : Fin 128 → Fin 64 → EReal) (W1 : Fin 64 → Fin 320 → EReal) (b1 : Fin 64 → EReal)
    (i j : Fin 128) (d : Fin 64) : EReal :=
  (∑ k : Fin 320, pairFeat xs i j k * W1 d k) + b1 d

/-- The mean of the 64 features: their sum divided by the float 64. -/
def lnMean (h : Fin 64 → EReal) : EReal := Ideal.div (∑ d : Fin 64, h d) (Ideal.ofBits .f32 0x42800000#32)

/-- Their variance: the sum of squared deviations divided by the float 64. -/
def lnVar (h : Fin 64 → EReal) : EReal :=
  Ideal.div (∑ d : Fin 64, (h d - lnMean h) * (h d - lnMean h)) (Ideal.ofBits .f32 0x42800000#32)

/-- Everything after the first layer, for one pair: LayerNorm with scale `g` and shift `bt`, relu, the bias on
    the diagonal (`e` is the indicator), the second layer `W2` and its bias, read at output feature `o`. -/
def tailRow (h : Fin 64 → EReal) (e : EReal) (g bt bias : Fin 64 → EReal) (W2 : Fin 64 → Fin 64 → EReal)
    (b2 : Fin 64 → EReal) (o : Fin 64) : EReal :=
  (∑ d : Fin 64,
      (max ((((h d - lnMean h) * Ideal.rsqrt (lnVar h + Ideal.ofBits .f32 0x3727C5AC#32)) * g d) + bt d)
          (Ideal.ofBits .f32 0x00000000#32)
        + bias d * e) * W2 o d)
    + b2 o

end Cert.PairMlp

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.PayMask.lean ====
/-
  The diagonal mask of the pair grid read at an index: the float of the widened comparison of the row number with the
  column number is 1 on the diagonal and 0 off it.
-/
import proofs.«125062_j63041529970916_2_alg».proof.Proof.Gen.KernelIdeal.Skeleton
import proofs.«125062_j63041529970916_2_alg».proof.Proof.Spec
import proofs.«125062_j63041529970916_2_alg».proof.Proof.LibKeepdimsLayout

noncomputable section

namespace Cert.KernelIdeal.PayValue

open Cert.KernelIdeal Cert.KernelIdeal.Gen Idealize.ShloMosaic Idealize.ShloMosaic.ValueIdx

/-- A 32-bit word equals itself: the comparison bit is 1. -/
theorem cmpi_eq_self (x : BitVec 32) : IntOp.cmpi .eq x x = 1#1 := by
  simp [IntOp.cmpi]

/-- Two different 32-bit words: the comparison bit is 0. -/
theorem cmpi_eq_ne {x y : BitVec 32} (h : x ≠ y) : IntOp.cmpi .eq x y = 0#1 := by
  have hb : (x == y) = false := beq_eq_false_iff_ne.mpr h
  simp [IntOp.cmpi, hb]

/-- Different numbers below 128 are different 32-bit words. -/
theorem ofNat_ne {i j : Fin 128} (h : i ≠ j) : BitVec.ofNat 32 i.val ≠ BitVec.ofNat 32 j.val := by
  intro e
  apply h
  have := congrArg BitVec.toNat e
  simp only [BitVec.toNat_ofNat] at this
  have hi := i.isLt; have hj := j.isLt
  apply Fin.ext
  omega

/-- The bit 1, widened to 32 bits and read as a signed integer, is the extended real 1. -/
theorem sitofp_bit_one : (FloatOps.sitofp (F := Ideal) .f32 ((1#1 : BitVec 1).setWidth 32) : EReal) = 1 := by
  show (((((1#1 : BitVec 1).setWidth 32).toInt : ℝ)) : EReal) = 1
  have : ((1#1 : BitVec 1).setWidth 32).toInt = 1 := by decide
  rw [this]; simp

/-- The bit 0, widened to 32 bits and read as a signed integer, is the extended real 0. -/
theorem sitofp_bit_zero : (FloatOps.sitofp (F := Ideal) .f32 ((0#1 : BitVec 1).setWidth 32) : EReal) = 0 := by
  show (((((0#1 : BitVec 1).setWidth 32).toInt : ℝ)) : EReal) = 0
  have : ((0#1 : BitVec 1).setWidth 32).toInt = 0 := by decide
  rw [this]; simp

/-- The mask at `(i, j, u)` is the diagonal indicator of `(i, j)`. -/
theorem mask_at (i j : Fin 128) (u : Fin 1) :
    k0_pay1 (F := Ideal) (ix3 i j u) = Cert.PairMlp.diag i j := by
  unfold k0_pay1
  refine (PayLayout.shapeCast_ab_ab1_apply _ _ i j u).trans ?_
  show FloatOps.sitofp (F := Ideal) .f32
      ((IntOp.cmpi .eq (iota .tc S128x128 32 [0] iota_S128x128_d0_w32 (ix2 i j))
        (iota .tc S128x128 32 [1] iota_S128x128_d1_w32 (ix2 i j))).setWidth 32) = _
  rw [iota_single_apply, iota_single_apply]
  show FloatOps.sitofp (F := Ideal) .f32
      ((IntOp.cmpi .eq (BitVec.ofNat 32 i.val) (BitVec.ofNat 32 j.val)).setWidth 32) = _
  unfold Cert.PairMlp.diag
  by_cases hij : i = j
  · subst hij
    rw [if_pos rfl, cmpi_eq_self]
    exact sitofp_bit_one
  · rw [if_neg hij, cmpi_eq_ne (ofNat_ne hij)]
    exact sitofp_bit_zero

end Cert.KernelIdeal.PayValue

end
-- ==== Proof.PayDots.lean ====
/-
  The three matrix products of the kernel body read at an index. Each contracts the left operand's columns with the
  right operand's rows, so at an output index and a contraction position the left index is (row, position) and the
  right index is (position, column); into the zero accumulator the product at (r, c) is the sum over the 64 contracted
  coordinates of left (r, f) times right (f, c).
-/
import proofs.«125062_j63041529970916_2_alg».proof.Proof.Gen.KernelIdeal.Skeleton
import proofs.«125062_j63041529970916_2_alg».proof.Proof.LibKeepdimsLayout

noncomputable section

namespace Cert.KernelIdeal.PayValue

open Cert.KernelIdeal Cert.KernelIdeal.Gen Idealize.ShloMosaic Idealize.ShloMosaic.ValueIdx

/-! ## The slab times the three row weight chunks: [128, 64] · [64, 192] -/

theorem d1_l0 (j : S128x192.Idx) (q : dot_S128x64_S64x192_S128x192_1_0_0_1_n_n.contr.Idx) :
    (dot_S128x64_S64x192_S128x192_1_0_0_1_n_n.lhsIdx j q 0).val = (j 0).val := by
  unfold DotDims.lhsIdx
  rw [dif_neg (show ¬(0 : Fin S128x64.rank) ∈ dot_S128x64_S64x192_S128x192_1_0_0_1_n_n.lhsBatch by decide),
    dif_pos (show (0 : Fin S128x64.rank) ∈ dot_S128x64_S64x192_S128x192_1_0_0_1_n_n.lhsNonContracting by decide)]
  rfl
theorem d1_l1 (j : S128x192.Idx) (q : dot_S128x64_S64x192_S128x192_1_0_0_1_n_n.contr.Idx) :
    (dot_S128x64_S64x192_S128x192_1_0_0_1_n_n.lhsIdx j q 1).val = (q ⟨0, by decide⟩).val :=
  dot_S128x64_S64x192_S128x192_1_0_0_1_n_n.lhsIdx_val_of_single rfl j q
theorem d1_r0 (j : S128x192.Idx) (q : dot_S128x64_S64x192_S128x192_1_0_0_1_n_n.contr.Idx) :
    (dot_S128x64_S64x192_S128x192_1_0_0_1_n_n.rhsIdx j q 0).val = (q ⟨0, by decide⟩).val :=
  dot_S128x64_S64x192_S128x192_1_0_0_1_n_n.rhsIdx_val_of_single rfl j q
theorem d1_r1 (j : S128x192.Idx) (q : dot_S128x64_S64x192_S128x192_1_0_0_1_n_n.contr.Idx) :
    (dot_S128x64_S64x192_S128x192_1_0_0_1_n_n.rhsIdx j q 1).val = (j 1).val := by
  unfold DotDims.rhsIdx
  rw [dif_neg (show ¬(1 : Fin S64x192.rank) ∈ dot_S128x64_S64x192_S128x192_1_0_0_1_n_n.rhsBatch by decide),
    dif_pos (show (1 : Fin S64x192.rank) ∈ dot_S128x64_S64x192_S128x192_1_0_0_1_n_n.rhsNonContracting by decide)]
  rfl

/-- The [128, 64] · [64, 192] product at `(r, c)`. -/
theorem matmul1_at {φ₁ φ₂ : FTy} (lhs : FVec Ideal S128x64 φ₁) (rhs : FVec Ideal S64x192 φ₂) (r : Fin 128) (c : Fin 192) :
    matmul dot_S128x64_S64x192_S128x192_1_0_0_1_n_n none lhs rhs (constant (F := Ideal) S128x192 .f32 0x00000000#32) (ix2 r c)
      = ∑ f : Fin 64, lhs (ix2 r f) * rhs (ix2 f c) :=
  PayLayout.matmul_zero_ix2_apply dot_S128x64_S64x192_S128x192_1_0_0_1_n_n rfl rfl d1_l0 d1_l1 d1_r0 d1_r1 none lhs rhs r c

/-! ## The row of column means times the two mean weight chunks: [1, 64] · [64, 128] -/

theorem d2_l0 (j : S1x128.Idx) (q : dot_S1x64_S64x128_S1x128_1_0_0_1_n_n.contr.Idx) :
    (dot_S1x64_S64x128_S1x128_1_0_0_1_n_n.lhsIdx j q 0).val = (j 0).val := by
  unfold DotDims.lhsIdx
  rw [dif_neg (show ¬(0 : Fin S1x64.rank) ∈ dot_S1x64_S64x128_S1x128_1_0_0_1_n_n.lhsBatch by decide),
    dif_pos (show (0 : Fin S1x64.rank) ∈ dot_S1x64_S64x128_S1x128_1_0_0_1_n_n.lhsNonContracting by decide)]
  rfl
theorem d2_l1 (j : S1x128.Idx) (q : dot_S1x64_S64x128_S1x128_1_0_0_1_n_n.contr.Idx) :
    (dot_S1x64_S64x128_S1x128_1_0_0_1_n_n.lhsIdx j q 1).val = (q ⟨0, by decide⟩).val :=
  dot_S1x64_S64x128_S1x128_1_0_0_1_n_n.lhsIdx_val_of_single rfl j q
theorem d2_r0 (j : S1x128.Idx) (q : dot_S1x64_S64x128_S1x128_1_0_0_1_n_n.contr.Idx) :
    (dot_S1x64_S64x128_S1x128_1_0_0_1_n_n.rhsIdx j q 0).val = (q ⟨0, by decide⟩).val :=
  dot_S1x64_S64x128_S1x128_1_0_0_1_n_n.rhsIdx_val_of_single rfl j q
theorem d2_r1 (j : S1x128.Idx) (q : dot_S1x64_S64x128_S1x128_1_0_0_1_n_n.contr.Idx) :
    (dot_S1x64_S64x128_S1x128_1_0_0_1_n_n.rhsIdx j q 1).val = (j 1).val := by
  unfold DotDims.rhsIdx
  rw [dif_neg (show ¬(1 : Fin S64x128.rank) ∈ dot_S1x64_S64x128_S1x128_1_0_0_1_n_n.rhsBatch by decide),
    dif_pos (show (1 : Fin S64x128.rank) ∈ dot_S1x64_S64x128_S1x128_1_0_0_1_n_n.rhsNonContracting by decide)]
  rfl

/-- The [1, 64] · [64, 128] product at `(r, c)`. -/
theorem matmul2_at {φ₁ φ₂ : FTy} (lhs : FVec Ideal S1x64 φ₁) (rhs : FVec Ideal S64x128 φ₂) (r : Fin 1) (c : Fin 128) :
    matmul dot_S1x64_S64x128_S1x128_1_0_0_1_n_n none lhs rhs (constant (F := Ideal) S1x128 .f32 0x00000000#32) (ix2 r c)
      = ∑ f : Fin 64, lhs (ix2 r f) * rhs (ix2 f c) :=
  PayLayout.matmul_zero_ix2_apply dot_S1x64_S64x128_S1x128_1_0_0_1_n_n rfl rfl d2_l0 d2_l1 d2_r0 d2_r1 none lhs rhs r c

/-! ## All pairs' hidden rows times the second layer's weight: [16384, 64] · [64, 64] -/

theorem d3_l0 (j : S16384x64.Idx) (q : dot_S16384x64_S64x64_S16384x64_1_0_0_1_n_n.contr.Idx) :
    (dot_S16384x64_S64x64_S16384x64_1_0_0_1_n_n.lhsIdx j q 0).val = (j 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl
theorem d3_l1 (j : S16384x64.Idx) (q : dot_S16384x64_S64x64_S16384x64_1_0_0_1_n_n.contr.Idx) :
    (dot_S16384x64_S64x64_S16384x64_1_0_0_1_n_n.lhsIdx j q 1).val = (q ⟨0, by decide⟩).val :=
  dot_S16384x64_S64x64_S16384x64_1_0_0_1_n_n.lhsIdx_val_of_single rfl j q
theorem d3_r0 (j : S16384x64.Idx) (q : dot_S16384x64_S64x64_S16384x64_1_0_0_1_n_n.contr.Idx) :
    (dot_S16384x64_S64x64_S16384x64_1_0_0_1_n_n.rhsIdx j q 0).val = (q ⟨0, by decide⟩).val :=
  dot_S16384x64_S64x64_S16384x64_1_0_0_1_n_n.rhsIdx_val_of_single rfl j q
theorem d3_r1 (j : S16384x64.Idx) (q : dot_S16384x64_S64x64_S16384x64_1_0_0_1_n_n.contr.Idx) :
    (dot_S16384x64_S64x64_S16384x64_1_0_0_1_n_n.rhsIdx j q 1).val = (j 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-- The [16384, 64] · [64, 64] product at `(r, c)`. -/
theorem matmul3_at {φ₁ φ₂ : FTy} (lhs : FVec Ideal S16384x64 φ₁) (rhs : FVec Ideal S64x64 φ₂) (r : Fin 16384) (c : Fin 64) :
    matmul dot_S16384x64_S64x64_S16384x64_1_0_0_1_n_n none lhs rhs (constant (F := Ideal) S16384x64 .f32 0x00000000#32) (ix2 r c)
      = ∑ f : Fin 64, lhs (ix2 r f) * rhs (ix2 f c) :=
  PayLayout.matmul_zero_ix2_apply dot_S16384x64_S64x64_S16384x64_1_0_0_1_n_n rfl rfl d3_l0 d3_l1 d3_r0 d3_r1 none lhs rhs r c

end Cert.KernelIdeal.PayValue

end
-- ==== Proof.PayFirst.lean ====
/-
  The first layer of the pair network read at an index: at pair `(i, j)` and hidden feature `d` the kernel's value is
  the split form of the first layer — rows `i` and `j` and the column means against their own weight chunks plus the
  bias, plus the diagonal indicator times (row `i` plus the means) against the two diagonal chunks.
-/
import proofs.«125062_j63041529970916_2_alg».proof.Proof.Gen.KernelIdeal.Skeleton
import proofs.«125062_j63041529970916_2_alg».proof.Proof.Spec
import proofs.«125062_j63041529970916_2_alg».proof.Proof.LibKeepdimsLayout
import proofs.«125062_j63041529970916_2_alg».proof.Proof.PayMask
import proofs.«125062_j63041529970916_2_alg».proof.Proof.PayDots

noncomputable section

namespace Cert.KernelIdeal.PayValue

open Cert.KernelIdeal Cert.KernelIdeal.Gen Idealize.ShloMosaic Idealize.ShloMosaic.ValueIdx

/-- The first layer at `(i, j, d)`. The column sums of the slab are read first (`hsum`); then the index goes through the
    sums and the product with the mask, each broadcast reads its operand's row, each unit-axis cast drops the unit
    coordinate, each slice of 64 columns reads the chunk's column, and the two matrix products are sums over the 64
    slab features. -/
theorem first_at (x0 : Vec Ideal S1x1x128x64 .f32) (wabc : Vec Ideal S64x192 .f32) (w45 : Vec Ideal S64x128 .f32)
    (b1 : Vec Ideal S64 .f32) (i j : Fin 128) (d : Fin 64) :
    k0_pay2 (F := Ideal) x0 wabc w45 b1 (ix3 i j d)
      = Cert.PairMlp.fc1Split (fun r f => x0 (ix4 (0 : Fin 1) (0 : Fin 1) r f)) (fun f c => wabc (ix2 f c))
          (fun f c => w45 (ix2 f c)) (fun d => b1 (ix1 d)) i j d := by
  have hsum : ∀ f : Fin 64,
      multiReduction (F := Ideal) .add [0] S64 (shapeCast S128x64 x0 shapeCasts_S1x1x128x64_S128x64) 0x00000000#32
          reduces_S128x64_S64 (.inl rfl) rfl (ix1 f)
        = ∑ r : Fin 128, x0 (ix4 (0 : Fin 1) (0 : Fin 1) r f) := fun f =>
    (PayLayout.rowSum_apply _ _ _ _ f).trans
      (Finset.sum_congr rfl fun r _ => PayLayout.shapeCast_11ab_ab_apply _ _ r f)
  unfold k0_pay2
  simp only [addf_apply, mulf_apply]
  rw [PayLayout.broadcastTo_a1c_abc_apply, PayLayout.broadcastTo_1bc_abc_apply, PayLayout.broadcastTo_11c_abc_apply,
    PayLayout.broadcastTo_ab1_abc_apply, PayLayout.broadcastTo_a1c_abc_apply]
  simp only [PayLayout.shapeCast_ac_a1c_apply, shapeCast_ab_1ab_apply, addf_apply]
  rw [slice2_axis1_apply 64 _ _ i d (Cert.PairMlp.col3 1 d) (by show 1 * 64 + d.val = 64 + d.val; omega),
    slice2_axis1_apply 128 _ _ j d (Cert.PairMlp.col3 2 d) (by show 2 * 64 + d.val = 128 + d.val; omega),
    slice2_axis1_apply 64 _ _ (0 : Fin 1) d (Cert.PairMlp.col2 1 d) (by show 1 * 64 + d.val = 64 + d.val; omega),
    slice2_axis1_apply 0 _ _ i d (Cert.PairMlp.col3 0 d) (by show 0 * 64 + d.val = 0 + d.val; omega),
    broadcastTo_1b_ab_apply,
    slice2_axis1_apply 0 _ _ (0 : Fin 1) d (Cert.PairMlp.col2 0 d) (by show 0 * 64 + d.val = 0 + d.val; omega)]
  rw [matmul1_at, matmul1_at, matmul1_at, matmul2_at, matmul2_at]
  simp only [PayLayout.shapeCast_11ab_ab_apply, shapeCast_self, divf_apply, broadcast_apply, shapeCast_a_1a_apply, hsum]
  rw [mask_at]
  rfl

end Cert.KernelIdeal.PayValue

end
-- ==== Proof.PayTail.lean ====
/-
  Everything after the first layer read at an index. The lane sum of the first layer at a pair is the sum of its 64
  hidden features (`sum_at`). Given any mask, first layer and lane sum with that relation at the pair `(i, j)`, the
  kernel's output at row `i` and column `j * 64 + o` is the LayerNorm, relu, diagonal bias and second layer of the
  pair's 64 hidden features, read at output feature `o` (`tail_at`): the two trailing reshapes are row-major, so that
  column is row `i * 128 + j` of the 16384 pair rows, which is pair `(i, j)`.
-/
import proofs.«125062_j63041529970916_2_alg».proof.Proof.Gen.KernelIdeal.Skeleton
import proofs.«125062_j63041529970916_2_alg».proof.Proof.Spec
import proofs.«125062_j63041529970916_2_alg».proof.Proof.LibKeepdimsLayout
import proofs.«125062_j63041529970916_2_alg».proof.Proof.PayDots

noncomputable section

namespace Cert.KernelIdeal.PayValue

open Cert.KernelIdeal Cert.KernelIdeal.Gen Idealize.ShloMosaic Idealize.ShloMosaic.ValueIdx

/-- A reciprocal square root at an index is the reciprocal square root of the element. -/
theorem rsqrt_at {s : Shape} {φ : FTy} (x : FVec Ideal s φ) (i : s.Idx) : rsqrt x i = Ideal.rsqrt (x i) := rfl

/-- The lane sum of the first layer at `(i, j, u)` is the sum over the 64 hidden features at pair `(i, j)`. -/
theorem sum_at (x0 : Vec Ideal S1x1x128x64 .f32) (wabc : Vec Ideal S64x192 .f32) (w45 : Vec Ideal S64x128 .f32)
    (b1 : Vec Ideal S64 .f32) (i j : Fin 128) (u : Fin 1) :
    k0_pay3 (F := Ideal) x0 wabc w45 b1 (ix3 i j u) = ∑ d : Fin 64, k0_pay2 (F := Ideal) x0 wabc w45 b1 (ix3 i j d) := by
  unfold k0_pay3
  refine (PayLayout.shapeCast_ab_ab1_apply _ _ i j u).trans ?_
  exact PayLayout.laneSum_apply _ _ _ _ i j

/-- The output at `(0, 0, i, j * 64 + o)` from a mask `v27`, a first layer `v40` and its lane sum `v42` (`h42`). -/
theorem tail_at (v27 : FVec Ideal S128x128x1 .f32) (v40 : FVec Ideal S128x128x64 .f32) (v42 : FVec Ideal S128x128x1 .f32)
    (g bt bias : Vec Ideal S64 .f32) (w2t : Vec Ideal S64x64 .bf16) (b2 : Vec Ideal S64 .f32) (i j : Fin 128) (o : Fin 64)
    (h42 : v42 (ix3 i j (0 : Fin 1)) = ∑ d : Fin 64, v40 (ix3 i j d)) :
    k0_pay4 (F := Ideal) v27 v40 v42 (Scalar.ofBits .f32 0x42800000#32) g bt bias w2t b2
        (ix4 (0 : Fin 1) (0 : Fin 1) i (⟨j.val * 64 + o.val, by have := j.isLt; have := o.isLt; omega⟩ : Fin 8192))
      = Cert.PairMlp.tailRow (fun d => v40 (ix3 i j d)) (v27 (ix3 i j (0 : Fin 1))) (fun d => g (ix1 d)) (fun d => bt (ix1 d))
          (fun d => bias (ix1 d)) (fun o d => w2t (ix2 d o)) (fun o => b2 (ix1 o)) o := by
  have hrow : i.val * 128 + j.val < 16384 := by have := i.isLt; have := j.isLt; omega
  have hcast : ∀ (x : FVec Ideal S128x128x64 .f32) (h : S128x128x64.ShapeCasts S16384x64) (d : Fin 64),
      shapeCast S16384x64 x h (ix2 (⟨i.val * 128 + j.val, hrow⟩ : Fin 16384) d) = x (ix3 i j d) := fun x h d =>
    PayLayout.shapeCast_abc_nc_apply x h i j d ⟨i.val * 128 + j.val, hrow⟩ rfl
  unfold k0_pay4
  simp only [PayLayout.shapeCast_ab_11ab_apply]
  rw [PayLayout.shapeCast_nc_am_apply (b := 128) _ _ (by norm_num) i j o ⟨i.val * 128 + j.val, hrow⟩ _ rfl rfl]
  simp only [addf_apply]
  rw [matmul3_at, broadcastTo_1b_ab_apply, shapeCast_a_1a_apply]
  simp only [truncf_apply, shapeCast_self, hcast]
  simp only [addf_apply, mulf_apply, maximumf_apply, subf_apply, divf_apply, broadcast_apply, rsqrt_at,
    PayLayout.broadcastTo_ab1_abc_apply, PayLayout.broadcastTo_11c_abc_apply, PayLayout.shapeCast_c_11c_apply,
    PayLayout.shapeCast_ab_ab1_apply]
  rw [PayLayout.laneSum_apply]
  simp only [mulf_apply, subf_apply, divf_apply, broadcast_apply, PayLayout.broadcastTo_ab1_abc_apply, h42]
  rfl

end Cert.KernelIdeal.PayValue

end
-- ==== Proof.PayloadAt.lean ====
/-
  The kernel's payload read at an index: at row `i` and column `j * 64 + o` of the slab's output the kernel's value is
  the pair network of pair `(i, j)` at output feature `o` — the split first layer, then LayerNorm, relu, the bias on
  the diagonal and the second layer.
-/
import proofs.«125062_j63041529970916_2_alg».proof.Proof.Gen.KernelIdeal.Skeleton
import proofs.«125062_j63041529970916_2_alg».proof.Proof.Spec
import proofs.«125062_j63041529970916_2_alg».proof.Proof.PayMask
import proofs.«125062_j63041529970916_2_alg».proof.Proof.PayFirst
import proofs.«125062_j63041529970916_2_alg».proof.Proof.PayTail

noncomputable section

namespace Cert.KernelIdeal.PayValue

open Cert.KernelIdeal Cert.KernelIdeal.Gen Idealize.ShloMosaic

/-- The tail lemma at the kernel's own mask, first layer and lane sum; then the mask is the diagonal indicator and the
    first layer's 64 hidden features at the pair are the split first layer. -/
theorem payload_at (x0 : Vec Ideal S1x1x128x64 .f32) (wabc : Vec Ideal S64x192 .f32) (w45 : Vec Ideal S64x128 .f32)
    (b1 g bt bias : Vec Ideal S64 .f32) (w2t : Vec Ideal S64x64 .bf16) (b2 : Vec Ideal S64 .f32) (i j : Fin 128) (o : Fin 64) :
    k0_pay4 (F := Ideal) k0_pay1 (k0_pay2 x0 wabc w45 b1) (k0_pay3 x0 wabc w45 b1) (Scalar.ofBits .f32 0x42800000#32) g bt bias w2t b2
        (ValueIdx.ix4 (0 : Fin 1) (0 : Fin 1) i (⟨j.val * 64 + o.val, by have := j.isLt; have := o.isLt; omega⟩ : Fin 8192))
      = Cert.PairMlp.tailRow
          (Cert.PairMlp.fc1Split (fun r f => x0 (ValueIdx.ix4 (0 : Fin 1) (0 : Fin 1) r f)) (fun f c => wabc (ValueIdx.ix2 f c)) (fun f c => w45 (ValueIdx.ix2 f c)) (fun d => b1 (ValueIdx.ix1 d)) i j)
          (Cert.PairMlp.diag i j) (fun d => g (ValueIdx.ix1 d)) (fun d => bt (ValueIdx.ix1 d)) (fun d => bias (ValueIdx.ix1 d))
          (fun o d => w2t (ValueIdx.ix2 d o)) (fun o => b2 (ValueIdx.ix1 o)) o := by
  have hfirst : (fun d : Fin 64 => k0_pay2 (F := Ideal) x0 wabc w45 b1 (ValueIdx.ix3 i j d))
      = Cert.PairMlp.fc1Split (fun r f => x0 (ValueIdx.ix4 (0 : Fin 1) (0 : Fin 1) r f)) (fun f c => wabc (ValueIdx.ix2 f c))
          (fun f c => w45 (ValueIdx.ix2 f c)) (fun d => b1 (ValueIdx.ix1 d)) i j :=
    funext fun d => first_at x0 wabc w45 b1 i j d
  refine (tail_at _ _ _ g bt bias w2t b2 i j o (sum_at x0 wabc w45 b1 i j 0)).trans ?_
  rw [mask_at, hfirst]

end Cert.KernelIdeal.PayValue

end
-- ==== Proof.IdealValue.lean ====
/-
  The region's result as one function of the arrays the region finds.

  Grid point (b, u) stages slab (b, u) of the input and the whole of every weight array, and writes block (b, u)
  of the [4, 8, 128, 8192] result, whose row i holds, at column j·64 + o, output feature o of the pair (i, j). So
  the result array, at (b, u, i, q), is the pair network of slab (b, u) at the pair (i, q / 64) and the feature
  q mod 64. The 32 blocks tile the result, one per point. The reshape after the region splits the last axis into
  (j, o) without moving anything.
-/
import proofs.«125062_j63041529970916_2_alg».proof.Proof.IdealFrame
import proofs.«125062_j63041529970916_2_alg».proof.Proof.PayloadAt
import proofs.«125062_j63041529970916_2_alg».proof.Proof.Spec
import Idealize.ShloMosaic.Lib.Pipeline.Value
import Idealize.ShloMosaic.Lib.ValueIdx
import Idealize.ShloMosaic.Lib.StableHlo.Run

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo
open Idealize.ShloMosaic.Pipeline (Dat)
open Idealize.ShloMosaic.ValueIdx Cert.PairMlp

/-- The pair's second row, and the output feature, of a column of the [128, 8192] block. -/
def pairOf (q : Fin 8192) : Fin 128 := ⟨q.val / 64, by have := q.isLt; omega⟩
def featOf (q : Fin 8192) : Fin 64 := ⟨q.val % 64, Nat.mod_lt _ (by decide)⟩

/-- The pair network of slab (b, u), at the pair (i, j) and output feature o, from the arrays as the region
    finds them: `A` and `B` the two joined weight matrices, `Wt` the second layer's weights transposed. -/
def rowOut (X : S4x8x128x64.Idx → EReal) (A : S64x192.Idx → EReal) (B : S64x128.Idx → EReal)
    (b1 g bt bias : S64.Idx → EReal) (Wt : S64x64.Idx → EReal) (b2 : S64.Idx → EReal)
    (b : Fin 4) (u : Fin 8) (i j : Fin 128) (o : Fin 64) : EReal :=
  tailRow (fc1Split (fun r f => X (ix4 b u r f)) (fun f c => A (ix2 f c)) (fun f c => B (ix2 f c)) (fun d => b1 (ix1 d)) i j)
    (diag i j) (fun d => g (ix1 d)) (fun d => bt (ix1 d)) (fun d => bias (ix1 d)) (fun o d => Wt (ix2 d o)) (fun o => b2 (ix1 o)) o

/-- The region's whole result array. -/
def outArr (X : S4x8x128x64.Idx → EReal) (A : S64x192.Idx → EReal) (B : S64x128.Idx → EReal)
    (b1 g bt bias : S64.Idx → EReal) (Wt : S64x64.Idx → EReal) (b2 : S64.Idx → EReal) : S4x8x128x8192.Idx → EReal :=
  fun q => rowOut X A B b1 g bt bias Wt b2 (⟨(q 0).val, (q 0).isLt⟩ : Fin 4) (⟨(q 1).val, (q 1).isLt⟩ : Fin 8) (⟨(q 2).val, (q 2).isLt⟩ : Fin 128)
    (pairOf (⟨(q 3).val, (q 3).isLt⟩ : Fin 8192)) (featOf (⟨(q 3).val, (q 3).isLt⟩ : Fin 8192))

/-- One point's stored block is the matching block of `outArr`: stated over plain variables for the nine loaded
    blocks, the slab's block being slab (b, u) of `X` and every other block the whole array. -/
theorem block_eq (X : S4x8x128x64.Idx → EReal) (A : S64x192.Idx → EReal) (B : S64x128.Idx → EReal)
    (b1 g bt bias : S64.Idx → EReal) (Wt : S64x64.Idx → EReal) (b2 : S64.Idx → EReal)
    (x0 : Vec Ideal S1x1x128x64 .f32) (x1 : Vec Ideal S64x192 .f32) (x2 : Vec Ideal S64x128 .f32)
    (x3 x4 x5 x6 : Vec Ideal S64 .f32) (x7 : Vec Ideal S64x64 .bf16) (x8 : Vec Ideal S64 .f32)
    (b : Fin 4) (u : Fin 8)
    (h0 : ∀ (r : Fin 128) (f : Fin 64), x0 (ix4 (0 : Fin 1) (0 : Fin 1) r f) = X (ix4 b u r f))
    (h1 : ∀ k, x1 k = A k) (h2 : ∀ k, x2 k = B k) (h3 : ∀ k, x3 k = b1 k) (h4 : ∀ k, x4 k = g k) (h5 : ∀ k, x5 k = bt k)
    (h6 : ∀ k, x6 k = bias k) (h7 : ∀ k, x7 k = Wt k) (h8 : ∀ k, x8 k = b2 k)
    (y : S1x1x128x8192.Idx) (q : S4x8x128x8192.Idx)
    (hq0 : (q 0).val = b.val) (hq1 : (q 1).val = u.val) (hq2 : (q 2).val = (y 2).val) (hq3 : (q 3).val = (y 3).val) :
    k0_pay4 (F := Ideal) k0_pay1 (k0_pay2 x0 x1 x2 x3) (k0_pay3 x0 x1 x2 x3) (Scalar.ofBits .f32 0x42800000#32) x4 x5 x6 x7 x8 y
      = outArr X A B b1 g bt bias Wt b2 q := by
  have hy0 : (y 0).val < 1 := (y 0).isLt
  have hy1 : (y 1).val < 1 := (y 1).isLt
  have hy3 : (y 3).val < 8192 := (y 3).isLt
  have hy : y = ix4 (0 : Fin 1) (0 : Fin 1) (⟨(y 2).val, (y 2).isLt⟩ : Fin 128)
      (⟨(pairOf ⟨(y 3).val, hy3⟩).val * 64 + (featOf ⟨(y 3).val, hy3⟩).val, by
        have := (pairOf ⟨(y 3).val, hy3⟩).isLt; have := (featOf ⟨(y 3).val, hy3⟩).isLt; omega⟩ : Fin 8192) := by
    funext a
    apply Fin.ext
    match a with
    | ⟨0, _⟩ => show (y 0).val = 0; omega
    | ⟨1, _⟩ => show (y 1).val = 0; omega
    | ⟨2, _⟩ => rfl
    | ⟨3, _⟩ => show (y 3).val = (y 3).val / 64 * 64 + (y 3).val % 64; omega
  rw [hy, Cert.KernelIdeal.PayValue.payload_at]
  unfold outArr rowOut
  have e0 : (⟨(q 0).val, (q 0).isLt⟩ : Fin 4) = b := Fin.ext hq0
  have e1 : (⟨(q 1).val, (q 1).isLt⟩ : Fin 8) = u := Fin.ext hq1
  have e2 : (⟨(q 2).val, (q 2).isLt⟩ : Fin 128) = (⟨(y 2).val, (y 2).isLt⟩ : Fin 128) := Fin.ext hq2
  have e3 : (⟨(q 3).val, (q 3).isLt⟩ : Fin 8192) = (⟨(y 3).val, hy3⟩ : Fin 8192) := Fin.ext hq3
  rw [e0, e1, e2, e3]
  simp only [h0, h1, h2, h3, h4, h5, h6, h7, h8]

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the 32 grid points: the slab window and the result window sit at block
    (b, u, 0, 0) with b < 4 and u < 8, every weight window at its one block. -/
theorem idx_facts : ∀ t : Fin cfg0.N,
    win0_0.index t (0 : Fin 4) = win0_9.index t (0 : Fin 4) ∧ win0_0.index t (1 : Fin 4) = win0_9.index t (1 : Fin 4)
    ∧ win0_0.index t (2 : Fin 4) = 0 ∧ win0_0.index t (3 : Fin 4) = 0
    ∧ win0_9.index t (2 : Fin 4) = 0 ∧ win0_9.index t (3 : Fin 4) = 0
    ∧ win0_9.index t (0 : Fin 4) < 4 ∧ win0_9.index t (1 : Fin 4) < 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every block (b, u) of the result is some point's. -/
theorem idx_onto : ∀ (b : Fin 4) (u : Fin 8), ∃ t : Fin cfg0.N, win0_9.index t = ![b.val, u.val, 0, 0] :=
  (by decide +kernel : ∀ (b : Fin 4) (u : Fin 8), ∃ t : Fin grid0.N, win0_9.index t = ![b.val, u.val, 0, 0])

/-- The arrays the region finds, as `outArr`'s arguments. -/
abbrev regionOut (c : Dev nD) : S4x8x128x8192.Idx → EReal :=
  outArr (V m c main_arg0) (V m c main_v8) (V m c main_v11) (V m c main_arg2) (V m c main_arg3) (V m c main_arg4)
    (V m c main_arg5) (V m c main_v13) (V m c main_arg7)

/-- What point `t` writes back is block `t` of `regionOut`. -/
theorem flushed_eq (c : Dev nD) (t : Fin cfg0.N) :
    (dats m 0 c).flushed 9 t = ((cfg0.win 9).blk t).view.read (Elt Ideal) (regionOut m c) := by
  show (cfg0.win 9).cut (grid0.coords t) ((dats m 0 c).after 9 t) = _
  rw [after0_9]
  unfold out0_9
  rw [View.canon_unit_zero hz4]
  simp only [View.ld_unit_zero (S := S1x1x128x64) hz4, View.ld_unit_zero (S := S64x192) hz2, View.ld_unit_zero (S := S64x128) hz2,
    View.ld_unit_zero (S := S64) hz1, View.ld_unit_zero (S := S64x64) hz2]
  obtain ⟨f0, f1, f2, f3, f4, f5, f6, f7, g10, g11, g20, g21, g3, g4, g5, g6, g70, g71, g8⟩ := idx_facts t
  funext y
  refine block_eq (V m c main_arg0) (V m c main_v8) (V m c main_v11) (V m c main_arg2) (V m c main_arg3) (V m c main_arg4)
    (V m c main_arg5) (V m c main_v13) (V m c main_arg7) (iblk m c 0 t) (iblk m c 1 t) (iblk m c 2 t) (iblk m c 3 t) (iblk m c 4 t)
    (iblk m c 5 t) (iblk m c 6 t) (iblk m c 7 t) (iblk m c 8 t) ⟨win0_9.index t (0 : Fin 4), f6⟩ ⟨win0_9.index t (1 : Fin 4), f7⟩
    ?_ ?_ ?_ ?_ ?_ ?_ ?_ ?_ ?_ y (((cfg0.win 9).blk t).view.emb y) ?_ ?_ ?_ ?_
  · intro r f
    show V m c main_arg0 (((cfg0.win 0).blk t).view.emb (ix4 (0 : Fin 1) (0 : Fin 1) r f)) = V m c main_arg0 _
    refine congrArg (V m c main_arg0) (funext fun a => Fin.ext ?_)
    match a with
    | ⟨0, _⟩ => show win0_0.index t (0 : Fin 4) * 1 + 1 * 0 = win0_9.index t (0 : Fin 4); omega
    | ⟨1, _⟩ => show win0_0.index t (1 : Fin 4) * 1 + 1 * 0 = win0_9.index t (1 : Fin 4); omega
    | ⟨2, _⟩ => show win0_0.index t (2 : Fin 4) * 128 + 1 * r.val = r.val; omega
    | ⟨3, _⟩ => show win0_0.index t (3 : Fin 4) * 64 + 1 * f.val = f.val; omega
  · intro k
    show V m c main_v8 (((cfg0.win 1).blk t).view.emb k) = V m c main_v8 k
    refine congrArg (V m c main_v8) (funext fun a => Fin.ext ?_)
    match a with
    | ⟨0, _⟩ => show win0_1.index t (0 : Fin 2) * 64 + 1 * (k 0).val = (k 0).val; omega
    | ⟨1, _⟩ => show win0_1.index t (1 : Fin 2) * 192 + 1 * (k 1).val = (k 1).val; omega
  · intro k
    show V m c main_v11 (((cfg0.win 2).blk t).view.emb k) = V m c main_v11 k
    refine congrArg (V m c main_v11) (funext fun a => Fin.ext ?_)
    match a with
    | ⟨0, _⟩ => show win0_2.index t (0 : Fin 2) * 64 + 1 * (k 0).val = (k 0).val; omega
    | ⟨1, _⟩ => show win0_2.index t (1 : Fin 2) * 128 + 1 * (k 1).val = (k 1).val; omega
  · intro k
    show V m c main_arg2 (((cfg0.win 3).blk t).view.emb k) = V m c main_arg2 k
    refine congrArg (V m c main_arg2) (funext fun a => Fin.ext ?_)
    match a with
    | ⟨0, _⟩ => show win0_3.index t (0 : Fin 1) * 64 + 1 * (k 0).val = (k 0).val; omega
  · intro k
    show V m c main_arg3 (((cfg0.win 4).blk t).view.emb k) = V m c main_arg3 k
    refine congrArg (V m c main_arg3) (funext fun a => Fin.ext ?_)
    match a with
    | ⟨0, _⟩ => show win0_4.index t (0 : Fin 1) * 64 + 1 * (k 0).val = (k 0).val; omega
  · intro k
    show V m c main_arg4 (((cfg0.win 5).blk t).view.emb k) = V m c main_arg4 k
    refine congrArg (V m c main_arg4) (funext fun a => Fin.ext ?_)
    match a with
    | ⟨0, _⟩ => show win0_5.index t (0 : Fin 1) * 64 + 1 * (k 0).val = (k 0).val; omega
  · intro k
    show V m c main_arg5 (((cfg0.win 6).blk t).view.emb k) = V m c main_arg5 k
    refine congrArg (V m c main_arg5) (funext fun a => Fin.ext ?_)
    match a with
    | ⟨0, _⟩ => show win0_6.index t (0 : Fin 1) * 64 + 1 * (k 0).val = (k 0).val; omega
  · intro k
    show V m c main_v13 (((cfg0.win 7).blk t).view.emb k) = V m c main_v13 k
    refine congrArg (V m c main_v13) (funext fun a => Fin.ext ?_)
    match a with
    | ⟨0, _⟩ => show win0_7.index t (0 : Fin 2) * 64 + 1 * (k 0).val = (k 0).val; omega
    | ⟨1, _⟩ => show win0_7.index t (1 : Fin 2) * 64 + 1 * (k 1).val = (k 1).val; omega
  · intro k
    show V m c main_arg7 (((cfg0.win 8).blk t).view.emb k) = V m c main_arg7 k
    refine congrArg (V m c main_arg7) (funext fun a => Fin.ext ?_)
    match a with
    | ⟨0, _⟩ => show win0_8.index t (0 : Fin 1) * 64 + 1 * (k 0).val = (k 0).val; omega
  · have := (y 0).isLt
    show win0_9.index t (0 : Fin 4) * 1 + 1 * (y 0).val = win0_9.index t (0 : Fin 4)
    have h : (y 0).val < 1 := (y 0).isLt
    omega
  · show win0_9.index t (1 : Fin 4) * 1 + 1 * (y 1).val = win0_9.index t (1 : Fin 4)
    have h : (y 1).val < 1 := (y 1).isLt
    omega
  · show win0_9.index t (2 : Fin 4) * 128 + 1 * (y 2).val = (y 2).val; omega
  · show win0_9.index t (3 : Fin 4) * 8192 + 1 * (y 3).val = (y 3).val; omega

/-- An index of the result is in point `t`'s block iff each coordinate is in the block's range on its axis. -/
theorem mem_blk (t : Fin cfg0.N) (i : S4x8x128x8192.Idx) :
    i ∈ ((cfg0.win 9).blk t).view.set ↔ ∀ a : Fin 4, win0_9.index t a * S1x1x128x8192.size a ≤ (i a).val ∧ (i a).val < win0_9.index t a * S1x1x128x8192.size a + S1x1x128x8192.size a := by
  show i ∈ ((View.whole main_v14).slice (win0_9.rect t)).set ↔ _
  rw [View.set_slice_whole, Rect.mem_set_unit]
  exact Iff.rfl

/-- The 32 blocks cover the result. -/
theorem covered (i : S4x8x128x8192.Idx) : ∃ t : Fin cfg0.N, (cfg0.win 9).flush t = true ∧ i ∈ ((cfg0.win 9).blk t).view.set := by
  have hi0 : (i 0).val < 4 := (i 0).isLt
  have hi1 : (i 1).val < 8 := (i 1).isLt
  have hi2 : (i 2).val < 128 := (i 2).isLt
  have hi3 : (i 3).val < 8192 := (i 3).isLt
  obtain ⟨t, ht⟩ := idx_onto ⟨(i 0).val, hi0⟩ ⟨(i 1).val, hi1⟩
  have q0 : win0_9.index t (0 : Fin 4) = (i 0).val := congrFun ht 0
  have q1 : win0_9.index t (1 : Fin 4) = (i 1).val := congrFun ht 1
  have q2 : win0_9.index t (2 : Fin 4) = 0 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 1 ≤ (i 1).val ∧ (i 1).val < win0_9.index t (1 : Fin 4) * 1 + 1; omega
  | ⟨2, _⟩ => show win0_9.index t (2 : Fin 4) * 128 ≤ (i 2).val ∧ (i 2).val < win0_9.index t (2 : Fin 4) * 128 + 128; omega
  | ⟨3, _⟩ => show win0_9.index t (3 : Fin 4) * 8192 ≤ (i 3).val ∧ (i 3).val < win0_9.index t (3 : Fin 4) * 8192 + 8192; omega

/-- So the region's result array ends holding `regionOut`. -/
theorem final9 (c : Dev nD) : (dats m 0 c).arrAt 9 cfg0.N = regionOut m c :=
  (dats m 0 c).arrAt_eq_of_cover 9 (regionOut m c) (fun t _ => flushed_eq m c t) covered

/-! ## The reshape after the region -/

/-- What the result buffer holds at the end: the reshape of the region's result. -/
abbrev resultOf (c : Dev nD) : Buf (Elt Ideal) ((c.tc : Thread nD τ).loc main_v15) :=
  Pipeline.afterTail₀ cfgs (dats m) 0 (V0 m) [hostOps1] c main_v15

/-- The pair network of slab (b, u) from the arrays the region finds, at the pair (i, j) and feature o. -/
abbrev regionRow (c : Dev nD) (b : Fin 4) (u : Fin 8) (i j : Fin 128) (o : Fin 64) : EReal :=
  rowOut (V m c main_arg0) (V m c main_v8) (V m c main_v11) (V m c main_arg2) (V m c main_arg3) (V m c main_arg4)
    (V m c main_arg5) (V m c main_v13) (V m c main_arg7) b u i j o

/-- The reshape splits the last axis into (j, o) and moves nothing: the result at (b, u, i, j, o) is the region's
    at (b, u, i, j·64 + o), that is, the pair network of slab (b, u) at the pair (i, j) and feature o. -/
theorem result_at (c : Dev nD) (b : Fin 4) (u : Fin 8) (i j : Fin 128) (o : Fin 64) :
    (resultOf m c : S4x8x128x128x64.Idx → EReal) (ix5 b u i j o) = regionRow m c b u i j o := by
  have e : (resultOf m c : S4x8x128x128x64.Idx → EReal)
      = shapeCast S4x8x128x128x64 ((dats m 0 c).arrAt 9 cfg0.N : S4x8x128x8192.Idx → EReal) shapeCasts_S4x8x128x8192_S4x8x128x128x64 := by
    unfold resultOf Pipeline.afterTail₀
    show StableHlo.after hostOps1 _ (Proc.devRef .tc main_v15) = _
    after_results
    rw [Pipeline.withArrays_arr spec0 launch0.win.arr_inj c _ _ 9]
    try rfl
  rw [e, final9]
  have hq : j.val * 64 + o.val < 8192 := by have := j.isLt; have := o.isLt; omega
  refine (shapeCast_apply _ shapeCasts_S4x8x128x8192_S4x8x128x128x64 (ix5 b u i j o) (ix4 b u i (⟨j.val * 64 + o.val, hq⟩ : Fin 8192)) ?_).trans ?_
  · rw [Shape.rowMajor_val_four, Shape.rowMajor_val_five]
    show ((b.val * 8 + u.val) * 128 + i.val) * 8192 + (j.val * 64 + o.val) = (((b.val * 8 + u.val) * 128 + i.val) * 128 + j.val) * 64 + o.val
    omega
  · show rowOut _ _ _ _ _ _ _ _ _ b u i (pairOf ⟨j.val * 64 + o.val, hq⟩) (featOf ⟨j.val * 64 + o.val, hq⟩) = _
    have ej : pairOf ⟨j.val * 64 + o.val, hq⟩ = j := Fin.ext (by show (j.val * 64 + o.val) / 64 = j.val; have := o.isLt; omega)
    have eo : featOf ⟨j.val * 64 + o.val, hq⟩ = o := Fin.ext (by show (j.val * 64 + o.val) % 64 = o.val; have := o.isLt; omega)
    rw [ej, eo]

/-- The run, read: the result buffer ends at `resultOf`, the eight arguments as launched. -/
theorem run : θ_run defs (onTc (τ := τ) (main (F := Ideal))) ⟨m, fun _ => 0, ρ⟩ (fun r => ∀ c : Dev nD,
      r.2.mem ((c.tc : Thread nD τ).loc main_v15) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v15 (Pipeline.mem_restRefs_of main_v15 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c),
      ((h c).1 8).trans (((dats m 0 c).arrAt_in 8 rfl _).trans ((A_eq m c 8).trans (V_main_arg7 m c)))⟩) (run_main m ρ)

end Cert.KernelIdeal.Val

end
-- ==== Proof.HostIn.lean ====
/-
  What the region finds in the three buffers the host lines prepare, read at an index.

  The first layer's weights arrive as one [64, 320] matrix `W1` whose row is the output feature. The host lines
  cut it into five [64, 64] chunks along its columns, transpose each, and join chunks 0, 1, 2 into a [64, 192]
  matrix and chunks 3, 4 into a [64, 128] one. So column `k·64 + d` of a joined matrix, at row `f`, is entry
  (d, chunk·64 + f) of `W1`. The second layer's [64, 64] weights are transposed (and narrowed, which changes no
  value over the extended reals).
-/
import proofs.«125062_j63041529970916_2_alg».proof.Proof.IdealFrame
import proofs.«125062_j63041529970916_2_alg».proof.Proof.Spec
import Idealize.ShloMosaic.Lib.Pipeline.Value
import Idealize.ShloMosaic.Lib.ValueIdx
import Idealize.ShloMosaic.Lib.StableHlo.Run

noncomputable section

namespace Cert.KernelIdeal.HostIn

open Cert.KernelIdeal Cert.KernelIdeal.Gen Cert.KernelIdeal.Frm
open Idealize.ShloMosaic Idealize.ShloMosaic.TcCoe Idealize.SL.Sem Idealize.ShloMosaic.StableHlo
open Idealize.ShloMosaic.ValueIdx Cert.PairMlp

variable (m : (ℓ : Loc nD τ sig) → Buf (Elt Ideal) ℓ)

/-- Chunk `k` of the first layer's weights, transposed: entry (f, d) is `W1` at (d, k·64 + f). -/
theorem chunkT_at (W : S64x320.Idx → EReal) (off : Fin 2 → Nat) (h : S64x320.Slices off S64x64) (k : Nat) (hk : k < 5)
    (hoff0 : off 0 = 0) (hoff1 : off 1 = k * 64) (f d : Fin 64) :
    transpose S64x64 [1, 0] (extractStridedSlice S64x64 off W h) transposes_S64x64_S64x64_1_0 (ix2 f d)
      = W (ix2 d (⟨k * 64 + f.val, by have := f.isLt; omega⟩ : Fin 320)) := by
  refine (transpose_apply [1, 0] _ transposes_S64x64_S64x64_1_0 (ix2 f d) (ix2 d f) (fun b => ?_)).trans ?_
  · match b with
    | ⟨0, _⟩ => rfl
    | ⟨1, _⟩ => rfl
  · refine extractStridedSlice_apply off W h (ix2 d f) _ (fun a => ?_)
    match a with
    | ⟨0, _⟩ => show d.val = off 0 + d.val; rw [hoff0]; omega
    | ⟨1, _⟩ => show k * 64 + f.val = off 1 + f.val; rw [hoff1]

/-- The first three chunks transposed, as the pieces of the [64, 192] join; and the last two, of the [64, 128] one. -/
abbrev pieces3 (W : S64x320.Idx → EReal) : List ((s : Shape) × (s.Idx → EReal)) :=
  [⟨S64x64, transpose S64x64 [1, 0] (extractStridedSlice S64x64 ![0, 0] W slices_S64x320_S64x64_0_0) transposes_S64x64_S64x64_1_0⟩,
           ⟨S64x64, transpose S64x64 [1, 0] (extractStridedSlice S64x64 ![0, 64] W slices_S64x320_S64x64_0_64) transposes_S64x64_S64x64_1_0⟩,
           ⟨S64x64, transpose S64x64 [1, 0] (extractStridedSlice S64x64 ![0, 128] W slices_S64x320_S64x64_0_128) transposes_S64x64_S64x64_1_0⟩]
abbrev pieces2 (W : S64x320.Idx → EReal) : List ((s : Shape) × (s.Idx → EReal)) :=
  [⟨S64x64, transpose S64x64 [1, 0] (extractStridedSlice S64x64 ![0, 192] W slices_S64x320_S64x64_0_192) transposes_S64x64_S64x64_1_0⟩,
           ⟨S64x64, transpose S64x64 [1, 0] (extractStridedSlice S64x64 ![0, 256] W slices_S64x320_S64x64_0_256) transposes_S64x64_S64x64_1_0⟩]

/-- The [64, 192] matrix the region finds: the first three chunks transposed, side by side. -/
theorem v8_eq (c : Dev nD) :
    (V m c main_v8 : S64x192.Idx → EReal)
      = concatenate S64x192 1
          [⟨S64x64, transpose S64x64 [1, 0] (extractStridedSlice S64x64 ![0, 0] (m ((c : Thread nD τ).loc main_arg1)) slices_S64x320_S64x64_0_0) transposes_S64x64_S64x64_1_0⟩,
           ⟨S64x64, transpose S64x64 [1, 0] (extractStridedSlice S64x64 ![0, 64] (m ((c : Thread nD τ).loc main_arg1)) slices_S64x320_S64x64_0_64) transposes_S64x64_S64x64_1_0⟩,
           ⟨S64x64, transpose S64x64 [1, 0] (extractStridedSlice S64x64 ![0, 128] (m ((c : Thread nD τ).loc main_arg1)) slices_S64x320_S64x64_0_128) transposes_S64x64_S64x64_1_0⟩]
          concatenates_S64x64_S64x64_S64x64_S64x192_d1 := by
  show StableHlo.after hostOps0 (fun b => m (c, b)) (Proc.devRef .tc main_v8) = _
  after_results
  try rfl

/-- The [64, 128] matrix the region finds: chunks 3 and 4 transposed, side by side. -/
theorem v11_eq (c : Dev nD) :
    (V m c main_v11 : S64x128.Idx → EReal)
      = concatenate S64x128 1
          [⟨S64x64, transpose S64x64 [1, 0] (extractStridedSlice S64x64 ![0, 192] (m ((c : Thread nD τ).loc main_arg1)) slices_S64x320_S64x64_0_192) transposes_S64x64_S64x64_1_0⟩,
           ⟨S64x64, transpose S64x64 [1, 0] (extractStridedSlice S64x64 ![0, 256] (m ((c : Thread nD τ).loc main_arg1)) slices_S64x320_S64x64_0_256) transposes_S64x64_S64x64_1_0⟩]
          concatenates_S64x64_S64x64_S64x128_d1 := by
  show StableHlo.after hostOps0 (fun b => m (c, b)) (Proc.devRef .tc main_v11) = _
  after_results
  try rfl

/-- The second layer's weights as the region finds them: transposed. -/
theorem v13_eq (c : Dev nD) :
    (V m c main_v13 : S64x64.Idx → EReal)
      = (truncf (F := Ideal) .bf16 (transpose S64x64 [1, 0] (m ((c : Thread nD τ).loc main_arg6) : S64x64.Idx → EReal) transposes_S64x64_S64x64_1_0) bitsLt_bf16_f32 : S64x64.Idx → EReal) := by
  show StableHlo.after hostOps0 (fun b => m (c, b)) (Proc.devRef .tc main_v13) = _
  after_results
  try rfl

/-- Column `k·64 + d` of the [64, 192] matrix at row `f` is `W1` at (d, k·64 + f), for the chunks k = 0, 1, 2. -/
theorem wabc_at (c : Dev nD) (k : Fin 3) (d f : Fin 64) :
    (V m c main_v8 : S64x192.Idx → EReal) (ix2 f (col3 k d))
      = (m ((c : Thread nD τ).loc main_arg1) : S64x320.Idx → EReal) (ix2 d (col5 ⟨k.val, by have := k.isLt; omega⟩ f)) := by
  rw [v8_eq]
  match k with
  | ⟨0, _⟩ =>
    refine (concatenate_apply_piece 1 (pieces3 (m ((c : Thread nD τ).loc main_arg1))) concatenates_S64x64_S64x64_S64x64_S64x192_d1 (ix2 f (col3 0 d)) 0 (Nat.succ_pos _) S64x64 _ rfl rfl 0 rfl
      (ix2 f d) (fun b hb => ?_) ?_).trans (chunkT_at _ _ _ 0 (by decide) rfl rfl f d)
    · match b with
      | ⟨0, _⟩ => rfl
      | ⟨1, _⟩ => exact absurd rfl hb
    · show 0 + d.val = 0 * 64 + d.val; omega
  | ⟨1, _⟩ =>
    refine (concatenate_apply_piece 1 (pieces3 (m ((c : Thread nD τ).loc main_arg1))) concatenates_S64x64_S64x64_S64x64_S64x192_d1 (ix2 f (col3 1 d)) 1 (Nat.succ_lt_succ (Nat.succ_pos _)) S64x64 _ rfl rfl 64 rfl
      (ix2 f d) (fun b hb => ?_) ?_).trans (chunkT_at _ _ _ 1 (by decide) rfl rfl f d)
    · match b with
      | ⟨0, _⟩ => rfl
      | ⟨1, _⟩ => exact absurd rfl hb
    · show 64 + d.val = 1 * 64 + d.val; omega
  | ⟨2, _⟩ =>
    refine (concatenate_apply_piece 1 (pieces3 (m ((c : Thread nD τ).loc main_arg1))) concatenates_S64x64_S64x64_S64x64_S64x192_d1 (ix2 f (col3 2 d)) 2 (Nat.succ_lt_succ (Nat.succ_lt_succ (Nat.succ_pos _))) S64x64 _ rfl rfl 128 rfl
      (ix2 f d) (fun b hb => ?_) ?_).trans (chunkT_at _ _ _ 2 (by decide) rfl rfl f d)
    · match b with
      | ⟨0, _⟩ => rfl
      | ⟨1, _⟩ => exact absurd rfl hb
    · show 128 + d.val = 2 * 64 + d.val; omega

/-- Column `k·64 + d` of the [64, 128] matrix at row `f` is `W1` at (d, (k + 3)·64 + f), for k = 0, 1. -/
theorem w45_at (c : Dev nD) (k : Fin 2) (d f : Fin 64) :
    (V m c main_v11 : S64x128.Idx → EReal) (ix2 f (col2 k d))
      = (m ((c : Thread nD τ).loc main_arg1) : S64x320.Idx → EReal) (ix2 d (col5 ⟨k.val + 3, by have := k.isLt; omega⟩ f)) := by
  rw [v11_eq]
  match k with
  | ⟨0, _⟩ =>
    refine (concatenate_apply_piece 1 (pieces2 (m ((c : Thread nD τ).loc main_arg1))) concatenates_S64x64_S64x64_S64x128_d1 (ix2 f (col2 0 d)) 0 (Nat.succ_pos _) S64x64 _ rfl rfl 0 rfl
      (ix2 f d) (fun b hb => ?_) ?_).trans (chunkT_at _ _ _ 3 (by decide) rfl rfl f d)
    · match b with
      | ⟨0, _⟩ => rfl
      | ⟨1, _⟩ => exact absurd rfl hb
    · show 0 + d.val = 0 * 64 + d.val; omega
  | ⟨1, _⟩ =>
    refine (concatenate_apply_piece 1 (pieces2 (m ((c : Thread nD τ).loc main_arg1))) concatenates_S64x64_S64x64_S64x128_d1 (ix2 f (col2 1 d)) 1 (Nat.succ_lt_succ (Nat.succ_pos _)) S64x64 _ rfl rfl 64 rfl
      (ix2 f d) (fun b hb => ?_) ?_).trans (chunkT_at _ _ _ 4 (by decide) rfl rfl f d)
    · match b with
      | ⟨0, _⟩ => rfl
      | ⟨1, _⟩ => exact absurd rfl hb
    · show 64 + d.val = 1 * 64 + d.val; omega

/-- The second layer's weights as the region finds them, at (d, o), are the argument's at (o, d). -/
theorem w2t_at (c : Dev nD) (d o : Fin 64) :
    (V m c main_v13 : S64x64.Idx → EReal) (ix2 d o) = (m ((c : Thread nD τ).loc main_arg6) : S64x64.Idx → EReal) (ix2 o d) := by
  rw [v13_eq]
  show transpose S64x64 [1, 0] (m ((c : Thread nD τ).loc main_arg6)) transposes_S64x64_S64x64_1_0 (ix2 d o) = _
  refine transpose_apply [1, 0] _ transposes_S64x64_S64x64_1_0 (ix2 d o) (ix2 o d) (fun b => ?_)
  match b with
  | ⟨0, _⟩ => rfl
  | ⟨1, _⟩ => rfl

end Cert.KernelIdeal.HostIn

end
-- ==== Proof.RefAt.lean ====
/-
  The reference program's result, read at one output index, is the pairwise-feature network of the specification.

  Fix a batch `b`, a user `u`, a pair of rows `(i, j)` and an output feature `o`. The reference builds, for the slab
  `xs r f = X[b, u, r, f]`:
  * the diagonal indicator, by comparing the row number with the column number as 32-bit words and converting the
    resulting bit to a float: the numbers are below 128, so the words agree exactly when the numbers do;
  * the column means, a sum over the 128 rows (started from the zero word) divided by the float 128;
  * five blocks of 64 features laid side by side along the last axis: a feature `k` below 320 lies in block `k / 64` at
    column `k % 64`, which is how the specification's `pairFeat` splits `k`;
  * the first layer, one sum over the 320 features against `W1`, plus `b1`;
  * LayerNorm over the 64 features: mean and variance are sums (started from the zero word) divided by the float 64,
    and the deviation is scaled by the reciprocal square root of the variance plus the literal epsilon;
  * scale `g`, shift `bt`, a maximum with the zero word, the bias times the indicator, the second layer and `b2`.
  Every step is read index by index; no algebraic law is used, so nothing here needs the inputs to be finite.
-/
import proofs.«125062_j63041529970916_2_alg».proof.Proof.Gen.ReferenceIdeal.Read
import proofs.«125062_j63041529970916_2_alg».proof.Proof.Spec
import Idealize.ShloMosaic.Lib.ValueIdx
import Idealize.ShloMosaic.Lib.Pipeline.Value
import Idealize.ShloMosaic.Lib.Affine
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The diagonal indicator -/

/-- Two numbers below 128 are equal when their 32-bit words are. -/
theorem word_inj (i j : Fin 128) (h : BitVec.ofNat 32 i.val = BitVec.ofNat 32 j.val) : i = j := by
  have h2 := congrArg BitVec.toNat h
  simp only [BitVec.toNat_ofNat] at h2
  have hi := i.isLt
  have hj := j.isLt
  exact Fin.ext (by omega)

/-- The converted comparison bit of row `i` (plus the zero word) against column `j` is the indicator of `i = j`. -/
theorem mask_word (i j : Fin 128) :
    FloatOps.uitofp (F := Ideal) .f32
        (IntOp.cmpi .eq (IntOp.addi (BitVec.ofNat 32 i.val) 0#32) (BitVec.ofNat 32 j.val))
      = Cert.PairMlp.diag i j := by
  have hadd : IntOp.addi (BitVec.ofNat 32 i.val) 0#32 = BitVec.ofNat 32 i.val := by
    show BitVec.ofNat 32 i.val + 0#32 = _
    exact BitVec.add_zero _
  rw [hadd]
  unfold Cert.PairMlp.diag
  by_cases h : i = j
  · subst h
    rw [if_pos rfl, (IntOp.cmpi_eq).mpr rfl]
    show (((1#1 : BitVec 1).toNat : ℝ) : EReal) = 1
    simp
  · rw [if_neg h]
    have hne : ¬ IntOp.cmpi .eq (BitVec.ofNat 32 i.val) (BitVec.ofNat 32 j.val) = 1#1 := by
      rw [IntOp.cmpi_eq]
      exact fun he => h (word_inj i j he)
    rw [eq_zero_of_ne_one hne]
    show (((0#1 : BitVec 1).toNat : ℝ) : EReal) = 0
    simp

/-- The indicator with its trailing unit axis, at row `i` and column `j`. -/
theorem mask_at (i j : Fin 128) (z : Fin 1) :
    val_main_v6 (F := Ideal) (ix3 i j z) = Cert.PairMlp.diag i j := by
  rw [val_main_v6_apply, val_main_v5_apply, val_main_v4_apply, val_main_v3_apply, val_main_v0_apply,
    val_main_v2_apply, val_main_c_apply, val_main_v1_apply]
  exact mask_word i j

/-! ## The five feature blocks and their join -/

section Feat
variable (X : (⟨S4x8x128x64, .f32⟩ : BufTy).Contents (Elt Ideal))

/-- The column means of the slab of batch `b` and user `u`. -/
theorem colMean_at (b : Fin 4) (u : Fin 8) (z : Fin 1) (f : Fin 64) :
    val_main_v10 (F := Ideal) X (ix4 b u z f) = Cert.PairMlp.colMean (fun r f => X (ix4 b u r f)) f := by
  rw [val_main_v10_apply, val_main_v8_apply, val_main_v7_apply, val_main_cst_apply, val_main_v9_apply,
    val_main_cst_0_apply]
  have e : ∀ r : Fin 128, idx_main_v7 (idx_main_v8 (ix4 b u z f)) r = ix4 b u r f := fun r =>
    funext fun a => by match a with | ⟨0, _⟩ => rfl | ⟨1, _⟩ => rfl | ⟨2, _⟩ => rfl | ⟨3, _⟩ => rfl
  simp only [e, Ideal.hostDivf_def, Ideal.ofBits_def, Ideal.ofBits_zero_f32, zero_add]
  rfl

/-- Block 0: row `i`, on the diagonal only. -/
theorem feat0_at (b : Fin 4) (u : Fin 8) (i j : Fin 128) (f : Fin 64) :
    val_main_v15 (F := Ideal) X (ix5 b u i j f) = X (ix4 b u i f) * Cert.PairMlp.diag i j := by
  rw [val_main_v15_apply, val_main_v13_apply, val_main_v11_apply, val_main_v14_apply, val_main_v12_apply]
  have e1 : idx_main_v11 (idx_main_v13 (ix5 b u i j f)) = ix4 b u i f :=
    funext fun a => by match a with | ⟨0, _⟩ => rfl | ⟨1, _⟩ => rfl | ⟨2, _⟩ => rfl | ⟨3, _⟩ => rfl
  have e2 : idx_main_v12 (idx_main_v14 (ix5 b u i j f)) = ix3 i j (0 : Fin 1) :=
    funext fun a => by match a with | ⟨0, _⟩ => rfl | ⟨1, _⟩ => rfl | ⟨2, _⟩ => rfl
  rw [e1, e2, mask_at]
  rfl

/-- Block 1: row `i`. -/
theorem feat1_at (b : Fin 4) (u : Fin 8) (i j : Fin 128) (f : Fin 64) :
    val_main_v17 (F := Ideal) X (ix5 b u i j f) = X (ix4 b u i f) := by
  rw [val_main_v17_apply, val_main_v16_apply]
  exact congrArg X (funext fun a => by match a with | ⟨0, _⟩ => rfl | ⟨1, _⟩ => rfl | ⟨2, _⟩ => rfl | ⟨3, _⟩ => rfl)

/-- Block 2: row `j`. -/
theorem feat2_at (b : Fin 4) (u : Fin 8) (i j : Fin 128) (f : Fin 64) :
    val_main_v19 (F := Ideal) X (ix5 b u i j f) = X (ix4 b u j f) := by
  rw [val_main_v19_apply, val_main_v18_apply]
  exact congrArg X (funext fun a => by match a with | ⟨0, _⟩ => rfl | ⟨1, _⟩ => rfl | ⟨2, _⟩ => rfl | ⟨3, _⟩ => rfl)

/-- Block 3: the column means, on the diagonal only. -/
theorem feat3_at (b : Fin 4) (u : Fin 8) (i j : Fin 128) (f : Fin 64) :
    val_main_v24 (F := Ideal) X (ix5 b u i j f)
      = Cert.PairMlp.colMean (fun r f => X (ix4 b u r f)) f * Cert.PairMlp.diag i j := by
  rw [val_main_v24_apply, val_main_v22_apply, val_main_v20_apply, val_main_v23_apply, val_main_v21_apply]
  have e1 : idx_main_v20 (idx_main_v22 (ix5 b u i j f)) = ix4 b u (0 : Fin 1) f :=
    funext fun a => by match a with | ⟨0, _⟩ => rfl | ⟨1, _⟩ => rfl | ⟨2, _⟩ => rfl | ⟨3, _⟩ => rfl
  have e2 : idx_main_v21 (idx_main_v23 (ix5 b u i j f)) = ix3 i j (0 : Fin 1) :=
    funext fun a => by match a with | ⟨0, _⟩ => rfl | ⟨1, _⟩ => rfl | ⟨2, _⟩ => rfl
  rw [e1, e2, mask_at, colMean_at]
  rfl

/-- Block 4: the column means. -/
theorem feat4_at (b : Fin 4) (u : Fin 8) (i j : Fin 128) (f : Fin 64) :
    val_main_v26 (F := Ideal) X (ix5 b u i j f) = Cert.PairMlp.colMean (fun r f => X (ix4 b u r f)) f := by
  rw [val_main_v26_apply, val_main_v25_apply]
  have e1 : idx_main_v25 (idx_main_v26 (ix5 b u i j f)) = ix4 b u (0 : Fin 1) f :=
    funext fun a => by match a with | ⟨0, _⟩ => rfl | ⟨1, _⟩ => rfl | ⟨2, _⟩ => rfl | ⟨3, _⟩ => rfl
  rw [e1, colMean_at]

/-- The five blocks side by side: feature `k` is column `k % 64` of block `k / 64`. -/
theorem feat_at (b : Fin 4) (u : Fin 8) (i j : Fin 128) (k : Fin 320) :
    val_main_v27 (F := Ideal) X (ix5 b u i j k) = Cert.PairMlp.pairFeat (fun r f => X (ix4 b u r f)) i j k := by
  have hk := k.isLt
  unfold val_main_v27 Cert.PairMlp.pairFeat
  split_ifs with h0 h1 h2 h3
  ·
    refine Eq.trans (concatenate_apply_piece _ _ _ (ix5 b u i j k) 0 (by show (0 : Nat) < 5; decide) S4x8x128x128x64 (val_main_v15 (F := Ideal) X) rfl rfl 0 rfl
      (ix5 b u i j (⟨k.val % 64, Nat.mod_lt _ (by decide)⟩ : Fin 64)) ?_ ?_) (feat0_at X b u i j _)
    · intro a ha
      match a with
      | ⟨0, _⟩ => rfl
      | ⟨1, _⟩ => rfl
      | ⟨2, _⟩ => rfl
      | ⟨3, _⟩ => rfl
      | ⟨4, _⟩ => exact absurd (Fin.ext rfl) ha
    · show 0 + k.val % 64 = k.val
      omega
  ·
    refine Eq.trans (concatenate_apply_piece _ _ _ (ix5 b u i j k) 1 (by show (1 : Nat) < 5; decide) S4x8x128x128x64 (val_main_v17 (F := Ideal) X) rfl rfl 64 rfl
      (ix5 b u i j (⟨k.val % 64, Nat.mod_lt _ (by decide)⟩ : Fin 64)) ?_ ?_) (feat1_at X b u i j _)
    · intro a ha
      match a with
      | ⟨0, _⟩ => rfl
      | ⟨1, _⟩ => rfl
      | ⟨2, _⟩ => rfl
      | ⟨3, _⟩ => rfl
      | ⟨4, _⟩ => exact absurd (Fin.ext rfl) ha
    · show 64 + k.val % 64 = k.val
      omega
  ·
    refine Eq.trans (concatenate_apply_piece _ _ _ (ix5 b u i j k) 2 (by show (2 : Nat) < 5; decide) S4x8x128x128x64 (val_main_v19 (F := Ideal) X) rfl rfl 128 rfl
      (ix5 b u i j (⟨k.val % 64, Nat.mod_lt _ (by decide)⟩ : Fin 64)) ?_ ?_) (feat2_at X b u i j _)
    · intro a ha
      match a with
      | ⟨0, _⟩ => rfl
      | ⟨1, _⟩ => rfl
      | ⟨2, _⟩ => rfl
      | ⟨3, _⟩ => rfl
      | ⟨4, _⟩ => exact absurd (Fin.ext rfl) ha
    · show 128 + k.val % 64 = k.val
      omega
  ·
    refine Eq.trans (concatenate_apply_piece _ _ _ (ix5 b u i j k) 3 (by show (3 : Nat) < 5; decide) S4x8x128x128x64 (val_main_v24 (F := Ideal) X) rfl rfl 192 rfl
      (ix5 b u i j (⟨k.val % 64, Nat.mod_lt _ (by decide)⟩ : Fin 64)) ?_ ?_) (feat3_at X b u i j _)
    · intro a ha
      match a with
      | ⟨0, _⟩ => rfl
      | ⟨1, _⟩ => rfl
      | ⟨2, _⟩ => rfl
      | ⟨3, _⟩ => rfl
      | ⟨4, _⟩ => exact absurd (Fin.ext rfl) ha
    · show 192 + k.val % 64 = k.val
      omega
  ·
    refine Eq.trans (concatenate_apply_piece _ _ _ (ix5 b u i j k) 4 (by show (4 : Nat) < 5; decide) S4x8x128x128x64 (val_main_v26 (F := Ideal) X) rfl rfl 256 rfl
      (ix5 b u i j (⟨k.val % 64, Nat.mod_lt _ (by decide)⟩ : Fin 64)) ?_ ?_) (feat4_at X b u i j _)
    · intro a ha
      match a with
      | ⟨0, _⟩ => rfl
      | ⟨1, _⟩ => rfl
      | ⟨2, _⟩ => rfl
      | ⟨3, _⟩ => rfl
      | ⟨4, _⟩ => exact absurd (Fin.ext rfl) ha
    · show 256 + k.val % 64 = k.val
      omega

end Feat

/-! ## The first layer -/

section Fc1
variable (X : (⟨S4x8x128x64, .f32⟩ : BufTy).Contents (Elt Ideal)) (W1 : (⟨S64x320, .f32⟩ : BufTy).Contents (Elt Ideal)) (b1 : (⟨S64, .f32⟩ : BufTy).Contents (Elt Ideal))

/-- The first layer's output, as one function of the feature number, for the pair `(i, j)` of slab `(b, u)`. -/
def hid (b : Fin 4) (u : Fin 8) (i j : Fin 128) : Fin 64 → EReal :=
  fun d => val_main_v31 (F := Ideal) X W1 b1 (ix5 b u i j d)

/-- One sum over the 320 pair features against `W1`, plus `b1`. -/
theorem fc1_at (b : Fin 4) (u : Fin 8) (i j : Fin 128) (d : Fin 64) :
    val_main_v31 (F := Ideal) X W1 b1 (ix5 b u i j d)
      = Cert.PairMlp.fc1Whole (fun r f => X (ix4 b u r f)) (fun d k => W1 (ix2 d k)) (fun d => b1 (ix1 d)) i j d := by
  rw [val_main_v31_apply, val_main_v28_apply, val_main_v30_apply, val_main_v29_apply]
  have el : ∀ k : Fin 320, lidx_main_v28 (ix5 b u i j d) k = ix5 b u i j k := fun k =>
    funext fun a => by match a with | ⟨0, _⟩ => rfl | ⟨1, _⟩ => rfl | ⟨2, _⟩ => rfl | ⟨3, _⟩ => rfl | ⟨4, _⟩ => rfl
  have er : ∀ k : Fin 320, ridx_main_v28 (ix5 b u i j d) k = ix2 d k := fun k =>
    funext fun a => by match a with | ⟨0, _⟩ => rfl | ⟨1, _⟩ => rfl
  have e3 : idx_main_v29 (idx_main_v30 (ix5 b u i j d)) = ix1 d :=
    funext fun a => by match a with | ⟨0, _⟩ => rfl
  simp only [el, er, e3, feat_at, Ideal.addf_def]
  rfl

theorem hid_eq (b : Fin 4) (u : Fin 8) (i j : Fin 128) :
    hid X W1 b1 b u i j
      = Cert.PairMlp.fc1Whole (fun r f => X (ix4 b u r f)) (fun d k => W1 (ix2 d k)) (fun d => b1 (ix1 d)) i j :=
  funext fun d => fc1_at X W1 b1 b u i j d

/-! ## LayerNorm's mean and variance -/

/-- The mean of the 64 features of the pair. -/
theorem mean_at (b : Fin 4) (u : Fin 8) (i j : Fin 128) (z : Fin 1) :
    val_main_v35 (F := Ideal) X W1 b1 (ix5 b u i j z) = Cert.PairMlp.lnMean (hid X W1 b1 b u i j) := by
  rw [val_main_v35_apply, val_main_v33_apply, val_main_v32_apply, val_main_cst_1_apply, val_main_v34_apply,
    val_main_cst_2_apply]
  have e : ∀ k : Fin 64, idx_main_v32 (idx_main_v33 (ix5 b u i j z)) k = ix5 b u i j k := fun k =>
    funext fun a => by match a with | ⟨0, _⟩ => rfl | ⟨1, _⟩ => rfl | ⟨2, _⟩ => rfl | ⟨3, _⟩ => rfl | ⟨4, _⟩ => rfl
  simp only [e, Ideal.hostDivf_def, Ideal.ofBits_def, Ideal.ofBits_zero_f32, zero_add]
  rfl

/-- Their variance. -/
theorem var_at (b : Fin 4) (u : Fin 8) (i j : Fin 128) (z : Fin 1) :
    val_main_v42 (F := Ideal) X W1 b1 (ix5 b u i j z) = Cert.PairMlp.lnVar (hid X W1 b1 b u i j) := by
  rw [val_main_v42_apply, val_main_v40_apply, val_main_v39_apply, val_main_cst_3_apply, val_main_v41_apply,
    val_main_cst_4_apply]
  have e : ∀ k : Fin 64, idx_main_v39 (idx_main_v40 (ix5 b u i j z)) k = ix5 b u i j k := fun k =>
    funext fun a => by match a with | ⟨0, _⟩ => rfl | ⟨1, _⟩ => rfl | ⟨2, _⟩ => rfl | ⟨3, _⟩ => rfl | ⟨4, _⟩ => rfl
  have e36 : ∀ k : Fin 64, idx_main_v36 (ix5 b u i j k) = ix5 b u i j (0 : Fin 1) := fun k =>
    funext fun a => by match a with | ⟨0, _⟩ => rfl | ⟨1, _⟩ => rfl | ⟨2, _⟩ => rfl | ⟨3, _⟩ => rfl | ⟨4, _⟩ => rfl
  simp only [e, val_main_v38_apply, val_main_v37_apply, val_main_v36_apply, e36, mean_at, Ideal.hostDivf_def,
    Ideal.ofBits_def, Ideal.ofBits_zero_f32, zero_add, Ideal.mulf_def, Ideal.subf_def]
  rfl

end Fc1

/-! ## After the first layer -/

section Tail
variable (X : (⟨S4x8x128x64, .f32⟩ : BufTy).Contents (Elt Ideal)) (W1 : (⟨S64x320, .f32⟩ : BufTy).Contents (Elt Ideal)) (b1 : (⟨S64, .f32⟩ : BufTy).Contents (Elt Ideal)) (g : (⟨S64, .f32⟩ : BufTy).Contents (Elt Ideal)) (bt : (⟨S64, .f32⟩ : BufTy).Contents (Elt Ideal)) (bias : (⟨S64, .f32⟩ : BufTy).Contents (Elt Ideal))

/-- The normalized, scaled and shifted feature `d`, through the maximum with zero, plus the bias on the diagonal. -/
theorem act_at (b : Fin 4) (u : Fin 8) (i j : Fin 128) (d : Fin 64) :
    val_main_v63 (F := Ideal) X W1 b1 g bt bias (ix5 b u i j d)
      = max ((((hid X W1 b1 b u i j d - Cert.PairMlp.lnMean (hid X W1 b1 b u i j))
                * Ideal.rsqrt (Cert.PairMlp.lnVar (hid X W1 b1 b u i j) + Ideal.ofBits .f32 0x3727C5AC#32))
              * g (ix1 d)) + bt (ix1 d))
            (Ideal.ofBits .f32 0x00000000#32)
          + bias (ix1 d) * Cert.PairMlp.diag i j := by
  rw [val_main_v63_apply, val_main_v56_apply, val_main_v55_apply, val_main_v52_apply, val_main_v49_apply,
    val_main_v44_apply, val_main_v43_apply, val_main_v48_apply, val_main_v47_apply, val_main_v46_apply,
    val_main_v45_apply, val_main_cst_5_apply, val_main_v51_apply, val_main_v50_apply, val_main_v54_apply,
    val_main_v53_apply, val_main_call0_v0_apply, val_main_call0_cst_apply, val_main_v62_apply, val_main_v61_apply,
    val_main_v60_apply, val_main_v58_apply, val_main_v57_apply, val_main_v59_apply]
  have e43 : idx_main_v43 (ix5 b u i j d) = ix5 b u i j (0 : Fin 1) :=
    funext fun a => by match a with | ⟨0, _⟩ => rfl | ⟨1, _⟩ => rfl | ⟨2, _⟩ => rfl | ⟨3, _⟩ => rfl | ⟨4, _⟩ => rfl
  have e48 : idx_main_v48 (ix5 b u i j d) = ix5 b u i j (0 : Fin 1) :=
    funext fun a => by match a with | ⟨0, _⟩ => rfl | ⟨1, _⟩ => rfl | ⟨2, _⟩ => rfl | ⟨3, _⟩ => rfl | ⟨4, _⟩ => rfl
  have e51 : idx_main_v50 (idx_main_v51 (ix5 b u i j d)) = ix1 d :=
    funext fun a => by match a with | ⟨0, _⟩ => rfl
  have e54 : idx_main_v53 (idx_main_v54 (ix5 b u i j d)) = ix1 d :=
    funext fun a => by match a with | ⟨0, _⟩ => rfl
  have e58 : idx_main_v57 (idx_main_v58 (idx_main_v61 (idx_main_v62 (ix5 b u i j d)))) = ix1 d :=
    funext fun a => by match a with | ⟨0, _⟩ => rfl
  have e59 : idx_main_v59 (idx_main_v61 (idx_main_v62 (ix5 b u i j d))) = ix3 i j (0 : Fin 1) :=
    funext fun a => by match a with | ⟨0, _⟩ => rfl | ⟨1, _⟩ => rfl | ⟨2, _⟩ => rfl
  rw [e43, e48, e51, e54, e58, e59, mean_at, var_at, mask_at]
  rfl

end Tail

/-! ## The result -/

/-- The reference's result at batch `b`, user `u`, pair `(i, j)` and output feature `o`. -/
theorem ref_at (X : (⟨S4x8x128x64, .f32⟩ : BufTy).Contents (Elt Ideal)) (W1 : (⟨S64x320, .f32⟩ : BufTy).Contents (Elt Ideal))
    (b1 g bt bias : (⟨S64, .f32⟩ : BufTy).Contents (Elt Ideal)) (W2 : (⟨S64x64, .f32⟩ : BufTy).Contents (Elt Ideal))
    (b2 : (⟨S64, .f32⟩ : BufTy).Contents (Elt Ideal)) (b : Fin 4) (u : Fin 8) (i j : Fin 128) (o : Fin 64) :
    Cert.ReferenceIdeal.Read.val_main_v67 (F := Ideal) X W1 b1 g bt bias W2 b2 (ValueIdx.ix5 b u i j o)
      = Cert.PairMlp.tailRow
          (Cert.PairMlp.fc1Whole (fun r f => X (ValueIdx.ix4 b u r f)) (fun d k => W1 (ValueIdx.ix2 d k)) (fun d => b1 (ValueIdx.ix1 d)) i j)
          (Cert.PairMlp.diag i j) (fun d => g (ValueIdx.ix1 d)) (fun d => bt (ValueIdx.ix1 d)) (fun d => bias (ValueIdx.ix1 d))
          (fun o d => W2 (ValueIdx.ix2 o d)) (fun o => b2 (ValueIdx.ix1 o)) o := by
  rw [val_main_v67_apply, val_main_v64_apply, val_main_v66_apply, val_main_v65_apply]
  have el : ∀ k : Fin 64, lidx_main_v64 (ix5 b u i j o) k = ix5 b u i j k := fun k =>
    funext fun a => by match a with | ⟨0, _⟩ => rfl | ⟨1, _⟩ => rfl | ⟨2, _⟩ => rfl | ⟨3, _⟩ => rfl | ⟨4, _⟩ => rfl
  have er : ∀ k : Fin 64, ridx_main_v64 (ix5 b u i j o) k = ix2 o k := fun k =>
    funext fun a => by match a with | ⟨0, _⟩ => rfl | ⟨1, _⟩ => rfl
  have e66 : idx_main_v65 (idx_main_v66 (ix5 b u i j o)) = ix1 o :=
    funext fun a => by match a with | ⟨0, _⟩ => rfl
  simp only [el, er, e66, act_at, Ideal.addf_def]
  rw [hid_eq]
  rfl

end Cert.ReferenceIdeal.RefValue

end
-- ==== Proof.SpecLaw.lean ====
/-
  The two spellings of the first layer agree.

  Splitting the sum over the 320 pair features into its five chunks of 64 gives five sums. Three of them (row i,
  row j, the means) are literally the kernel's. The other two carry the diagonal indicator inside every term;
  the indicator is 0 or 1, and for either value it may be pulled out of the sum and out of the sum of the two
  sums: at 1 nothing changes, at 0 every term and the product are 0 (0 annihilates every extended real). The rest is
  reordering a finite sum, which the extended reals allow without any finiteness assumption.
-/
import proofs.«125062_j63041529970916_2_alg».proof.Proof.Spec
import Mathlib.Algebra.BigOperators.Fin
import Mathlib.Logic.Equiv.Fin.Basic

noncomputable section

namespace Cert.PairMlp

open Idealize.ShloMosaic

theorem col5_val (c : Fin 5) (f : Fin 64) : (col5 c f).val = c.val * 64 + f.val := rfl

/-- A sum over 320 columns is the sum over the five chunks of the sums over each chunk's 64 columns. -/
theorem sum_chunks (G : Fin 320 → EReal) : ∑ k : Fin 320, G k = ∑ c : Fin 5, ∑ f : Fin 64, G (col5 c f) := by
  rw [← Finset.sum_product' (Finset.univ : Finset (Fin 5)) (Finset.univ : Finset (Fin 64)) (fun c f => G (col5 c f))]
  rw [Finset.univ_product_univ]
  refine (Fintype.sum_equiv (finProdFinEquiv (m := 5) (n := 64)) (fun p => G (col5 p.1 p.2)) G ?_).symm
  rintro ⟨c, f⟩
  refine congrArg G (Fin.ext ?_)
  show c.val * 64 + f.val = f.val + 64 * c.val
  omega

section chunks
variable (xs : Fin 128 → Fin 64 → EReal) (i j : Fin 128) (f : Fin 64)

private theorem mod_eq (c : Nat) : (c * 64 + f.val) % 64 = f.val := by have := f.isLt; omega

theorem pairFeat_chunk0 : pairFeat xs i j (col5 0 f) = xs i f * diag i j := by
  have := f.isLt
  unfold pairFeat
  have h : (col5 0 f).val = f.val := by rw [col5_val]; simp
  simp only [h, this, if_true, Nat.mod_eq_of_lt this, Fin.eta]
theorem pairFeat_chunk1 : pairFeat xs i j (col5 1 f) = xs i f := by
  have := f.isLt
  unfold pairFeat
  have h : (col5 1 f).val = 64 + f.val := by rw [col5_val]; simp
  have hm : (64 + f.val) % 64 = f.val := by omega
  simp only [h, hm, Fin.eta, show ¬ (64 + f.val < 64) by omega, show 64 + f.val < 128 by omega, if_true, if_false]
theorem pairFeat_chunk2 : pairFeat xs i j (col5 2 f) = xs j f := by
  have := f.isLt
  unfold pairFeat
  have h : (col5 2 f).val = 128 + f.val := by rw [col5_val]; simp
  have hm : (128 + f.val) % 64 = f.val := by omega
  simp only [h, hm, Fin.eta, show ¬ (128 + f.val < 64) by omega, show ¬ (128 + f.val < 128) by omega,
    show 128 + f.val < 192 by omega, if_true, if_false]
theorem pairFeat_chunk3 : pairFeat xs i j (col5 3 f) = colMean xs f * diag i j := by
  have := f.isLt
  unfold pairFeat
  have h : (col5 3 f).val = 192 + f.val := by rw [col5_val]; simp
  have hm : (192 + f.val) % 64 = f.val := by omega
  simp only [h, hm, Fin.eta, show ¬ (192 + f.val < 64) by omega, show ¬ (192 + f.val < 128) by omega,
    show ¬ (192 + f.val < 192) by omega, show 192 + f.val < 256 by omega, if_true, if_false]
theorem pairFeat_chunk4 : pairFeat xs i j (col5 4 f) = colMean xs f := by
  have := f.isLt
  unfold pairFeat
  have h : (col5 4 f).val = 256 + f.val := by rw [col5_val]; simp
  have hm : (256 + f.val) % 64 = f.val := by omega
  simp only [h, hm, Fin.eta, show ¬ (256 + f.val < 64) by omega, show ¬ (256 + f.val < 128) by omega,
    show ¬ (256 + f.val < 192) by omega, show ¬ (256 + f.val < 256) by omega, if_false]
end chunks

/-- The kernel's first layer is the reference's, when the kernel's two weight matrices hold the reference's
    weight chunks transposed: chunks 0, 1, 2 in `wabc`, chunks 3, 4 in `w45`. -/
theorem fc1Split_eq_fc1Whole (xs : Fin 128 → Fin 64 → EReal) (W1 : Fin 64 → Fin 320 → EReal) (b1 : Fin 64 → EReal)
    (wabc : Fin 64 → Fin 192 → EReal) (w45 : Fin 64 → Fin 128 → EReal)
    (habc : ∀ (c : Fin 3) (d f : Fin 64), wabc f (col3 c d) = W1 d (col5 ⟨c.val, by have := c.isLt; omega⟩ f))
    (h45 : ∀ (c : Fin 2) (d f : Fin 64), w45 f (col2 c d) = W1 d (col5 ⟨c.val + 3, by have := c.isLt; omega⟩ f))
    (i j : Fin 128) (d : Fin 64) :
    fc1Split xs wabc w45 b1 i j d = fc1Whole xs W1 b1 i j d := by
  unfold fc1Split fc1Whole
  rw [sum_chunks, Fin.sum_univ_five]
  simp only [pairFeat_chunk0, pairFeat_chunk1, pairFeat_chunk2, pairFeat_chunk3, pairFeat_chunk4]
  have e0 : ∀ f, wabc f (col3 0 d) = W1 d (col5 0 f) := fun f => habc 0 d f
  have e1 : ∀ f, wabc f (col3 1 d) = W1 d (col5 1 f) := fun f => habc 1 d f
  have e2 : ∀ f, wabc f (col3 2 d) = W1 d (col5 2 f) := fun f => habc 2 d f
  have e3 : ∀ f, w45 f (col2 0 d) = W1 d (col5 3 f) := fun f => h45 0 d f
  have e4 : ∀ f, w45 f (col2 1 d) = W1 d (col5 4 f) := fun f => h45 1 d f
  simp only [e0, e1, e2, e3, e4]
  by_cases hij : i = j
  · simp only [diag, hij, if_true, mul_one, one_mul]
    ac_rfl
  · simp only [diag, hij, if_false, mul_zero, zero_mul, Finset.sum_const_zero, add_zero, zero_add]
    ac_rfl

end Cert.PairMlp

end
-- ==== Proof.Bridge.lean ====
/-
  The idealized kernel's result and the reference's are one function of the arguments.

  At (b, u, i, j, o) the kernel's result is the pair network of slab (b, u) with the first layer in its split
  spelling over the two joined weight matrices; those matrices hold the reference's weight chunks transposed,
  so the split spelling is the reference's single sum over the 320 pair features; everything after the first
  layer is spelt alike on both sides, the second layer's weights read transposed.
-/
import proofs.«125062_j63041529970916_2_alg».proof.Proof.IdealValue
import proofs.«125062_j63041529970916_2_alg».proof.Proof.HostIn
import proofs.«125062_j63041529970916_2_alg».proof.Proof.RefAt
import proofs.«125062_j63041529970916_2_alg».proof.Proof.SpecLaw

noncomputable section

namespace Cert.KernelIdeal.Bridge

open Cert.KernelIdeal Cert.KernelIdeal.Gen Cert.KernelIdeal.Frm Cert.KernelIdeal.Val
open Idealize.ShloMosaic Idealize.ShloMosaic.TcCoe Idealize.SL.Sem
open Idealize.ShloMosaic.ValueIdx Cert.PairMlp

variable (m : (ℓ : Loc nD τ sig) → Buf (Elt Ideal) ℓ)

/-- The kernel's pair network over the arrays the region finds is the reference's over the arguments. -/
theorem regionRow_eq (c : Dev nD) (b : Fin 4) (u : Fin 8) (i j : Fin 128) (o : Fin 64) :
    regionRow m c b u i j o
      = tailRow
          (fc1Whole (fun r f => ((m ((c.tc : Thread Cert.KernelIdeal.nD Cert.KernelIdeal.τ).loc Cert.KernelIdeal.main_arg0)) : S4x8x128x64.Idx → EReal) (ix4 b u r f))
            (fun d k => ((m ((c.tc : Thread Cert.KernelIdeal.nD Cert.KernelIdeal.τ).loc Cert.KernelIdeal.main_arg1)) : S64x320.Idx → EReal) (ix2 d k))
            (fun d => ((m ((c.tc : Thread Cert.KernelIdeal.nD Cert.KernelIdeal.τ).loc Cert.KernelIdeal.main_arg2)) : S64.Idx → EReal) (ix1 d)) i j)
          (diag i j) (fun d => ((m ((c.tc : Thread Cert.KernelIdeal.nD Cert.KernelIdeal.τ).loc Cert.KernelIdeal.main_arg3)) : S64.Idx → EReal) (ix1 d)) (fun d => ((m ((c.tc : Thread Cert.KernelIdeal.nD Cert.KernelIdeal.τ).loc Cert.KernelIdeal.main_arg4)) : S64.Idx → EReal) (ix1 d))
          (fun d => ((m ((c.tc : Thread Cert.KernelIdeal.nD Cert.KernelIdeal.τ).loc Cert.KernelIdeal.main_arg5)) : S64.Idx → EReal) (ix1 d)) (fun o d => ((m ((c.tc : Thread Cert.KernelIdeal.nD Cert.KernelIdeal.τ).loc Cert.KernelIdeal.main_arg6)) : S64x64.Idx → EReal) (ix2 o d))
          (fun o => ((m ((c.tc : Thread Cert.KernelIdeal.nD Cert.KernelIdeal.τ).loc Cert.KernelIdeal.main_arg7)) : S64.Idx → EReal) (ix1 o)) o := by
  unfold regionRow rowOut
  rw [V_main_arg0 m c, V_main_arg2 m c, V_main_arg3 m c, V_main_arg4 m c, V_main_arg5 m c, V_main_arg7 m c]
  refine congrArg₂ (fun h W => tailRow h (diag i j) _ _ _ W _ o) (funext fun d => ?_)
    (funext fun o => funext fun d => HostIn.w2t_at m c d o)
  exact fc1Split_eq_fc1Whole _ _ _ _ _ (fun k d f => HostIn.wabc_at m c k d f) (fun k d f => HostIn.w45_at m c k d f) i j d

end Cert.KernelIdeal.Bridge

end
-- ==== Proof.lean ====
/-
  The certificate's claim: the three programs run to their ends leaving their arguments unchanged, the kernel's
  idealization rewrote nothing, and the idealized kernel and the idealized reference compute the same result
  over the extended reals.

  The kernel computes, for every slab of 128 rows and every ordered pair of rows, a two-layer network on five
  pairwise feature blocks. The reference builds the 320-wide feature vector and multiplies it by the first
  layer's weights in one sum; the kernel never builds it: it multiplies the slab and its column means by
  weight chunks once and combines the products per pair, the two diagonal-only blocks through one product with
  the diagonal indicator. The two agree because that indicator is 0 or 1; no input needs to be finite.
-/
import proofs.«125062_j63041529970916_2_alg».proof.Defs
import proofs.«125062_j63041529970916_2_alg».proof.Proof.Gen.Kernel
import proofs.«125062_j63041529970916_2_alg».proof.Proof.Gen.KernelIdeal
import proofs.«125062_j63041529970916_2_alg».proof.Proof.Gen.ReferenceIdeal
import proofs.«125062_j63041529970916_2_alg».proof.Proof.Gen.ReferenceIdeal.Run
import proofs.«125062_j63041529970916_2_alg».proof.Proof.Gen.ReferenceIdeal.Read
import proofs.«125062_j63041529970916_2_alg».proof.Proof.Gen.Pre_finite_inputs
import proofs.«125062_j63041529970916_2_alg».proof.Proof.BitsFrame
import proofs.«125062_j63041529970916_2_alg».proof.Proof.IdealFrame
import proofs.«125062_j63041529970916_2_alg».proof.Proof.IdealValue
import proofs.«125062_j63041529970916_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel :=
  fun m ρ _ => Cert.Kernel.Frm.frame m ρ

/-- So does its idealization. -/
theorem frame_ki : Cert.frame_KernelIdeal :=
  fun m ρ _ => Cert.KernelIdeal.Frm.frame m ρ

/-- The reference is host lines only: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, the idealized kernel's result buffer and the reference's end equal:
    index by index both are the pair network of the index's slab, pair and output feature. -/
theorem algebraic : Cert.algebraic_KernelIdeal_ReferenceIdeal := by
  intro m ρ m' ρ' _ hagree
  refine ⟨fun c => Cert.KernelIdeal.Val.resultOf m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq]
  obtain ⟨a0, a1, a2, a3, a4, a5, a6, a7⟩ := hagree c
  rw [a0, a1, a2, a3, a4, a5, a6, a7]
  show (Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) : Cert.KernelIdeal.S4x8x128x128x64.Idx → EReal)
      = (Cert.KernelIdeal.Val.resultOf m c : Cert.KernelIdeal.S4x8x128x128x64.Idx → EReal)
  funext q
  obtain ⟨b, u, i, j, o, rfl⟩ : ∃ (b : Fin 4) (u : Fin 8) (i j : Fin 128) (o : Fin 64), q = ix5 b u i j o :=
    ⟨q 0, q 1, q 2, q 3, q 4, eq_ix5 q⟩
  exact (Cert.ReferenceIdeal.RefValue.ref_at _ _ _ _ _ _ _ _ b u i j o).trans
    ((Cert.KernelIdeal.Val.result_at m c b u i j o).trans (Cert.KernelIdeal.Bridge.regionRow_eq m c b u i j o)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
